-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S100000x3 : Shape := ⟨2, ![100000, 3]⟩
abbrev S16384x3 : Shape := ⟨2, ![16384, 3]⟩
abbrev S1000000 : Shape := ⟨1, ![1000000]⟩
abbrev S6x64 : Shape := ⟨2, ![6, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S256x4 : Shape := ⟨2, ![256, 4]⟩
abbrev S4 : Shape := ⟨1, ![4]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S100000x3 : S_.BroadcastsInDim S100000x3 (![] : Fin 0 → Fin S100000x3.rank)
  reducesTo_S100000x3_S_d0_1 : S100000x3.ReducesTo [0, 1] S_
  bcast_S_S16384x3 : S_.BroadcastsInDim S16384x3 (![] : Fin 0 → Fin S16384x3.rank)
  reducesTo_S16384x3_S_d0_1 : S16384x3.ReducesTo [0, 1] S_
  bcast_S_S6x64 : S_.BroadcastsInDim S6x64 (![] : Fin 0 → Fin S6x64.rank)
  reducesTo_S6x64_S_d0_1 : S6x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x4 : S_.BroadcastsInDim S256x4 (![] : Fin 0 → Fin S256x4.rank)
  reducesTo_S256x4_S_d0_1 : S256x4.ReducesTo [0, 1] S_
  bcast_S_S4 : S_.BroadcastsInDim S4 (![] : Fin 0 → Fin S4.rank)
  reducesTo_S4_S_d0 : S4.ReducesTo [0] S_

variable [Facts]

def fn_part3 {F : FTy → Type} [FloatOps F] (main_arg13 : FVec F S256x4 .f32) (main_arg14 : FVec F S4 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x4 .f32 := Host.absf main_arg13
  let main_cst_20 : FVec F S_ .f32 := constant S_ .f32 0x7F800000#32
  let main_v55 : FVec F S256x4 .f32 := broadcastInDim S256x4 ![] bcast_S_S256x4 main_cst_20
  let main_v56 : IVec S256x4 1 := cmpf .olt main_v54 main_v55
  let main_c_21 : IVec S_ 1 := constantI S_ 1 1#1
  let main_v57 : IVec S_ 1 := (fun x v => Host.reduce IntOp.andi x v reducesTo_S256x4_S_d0_1 h_S_) main_v56 main_c_21
  let main_v58 : IVec S_ 1 := andi main_v53 main_v57
  let main_v59 : FVec F S4 .f32 := Host.absf main_arg14
  let main_cst_22 : FVec F S_ .f32 := constant S_ .f32 0x7F800000#32
  let main_v60 : FVec F S4 .f32 := broadcastInDim S4 ![] bcast_S_S4 main_cst_22
  let main_v61 : IVec S4 1 := cmpf .olt main_v59 main_v60
  let main_c_23 : IVec S_ 1 := constantI S_ 1 1#1
  let main_v62 : IVec S_ 1 := (fun x v => Host.reduce IntOp.andi x v reducesTo_S4_S_d0 h_S_) main_v61 main_c_23
  let main_v63 : IVec S_ 1 := andi main_v58 main_v62
  main_v63

def fn_part2 {F : FTy → Type} [FloatOps F] (main_arg9 : FVec F S64x128 .f32) (main_arg10 : FVec F S128 .f32) (main_arg11 : FVec F S128x256 .f32) (main_arg12 : FVec F S256 .f32) (main_arg13 : FVec F S256x4 .f32) (main_arg14 : FVec F S4 .f32) (main_v33 : IVec S_ 1) : IVec S_ 1 :=
  let main_v34 : FVec F S64x128 .f32 := Host.absf main_arg9
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x256 .f32 := Host.absf main_arg11
  let main_cst_16 : FVec F S_ .f32 := constant S_ .f32 0x7F800000#32
  let main_v45 : FVec F S128x256 .f32 := broadcastInDim S128x256 ![] bcast_S_S128x256 main_cst_16
  let main_v46 : IVec S128x256 1 := cmpf .olt main_v44 main_v45
  let main_c_17 : IVec S_ 1 := constantI S_ 1 1#1
  let main_v47 : IVec S_ 1 := (fun x v => Host.reduce IntOp.andi x v reducesTo_S128x256_S_d0_1 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg13 main_arg14 main_v48 main_v49 main_v50

def fn_part1 {F : FTy → Type} [FloatOps F] (main_arg6 : FVec F S64 .f32) (main_arg7 : FVec F S64x64 .f32) (main_arg8 : FVec F S64 .f32) (main_arg9 : FVec F S64x128 .f32) (main_arg10 : FVec F S128 .f32) (main_arg11 : FVec F S128x256 .f32) (main_arg12 : FVec F S256 .f32) (main_arg13 : FVec F S256x4 .f32) (main_arg14 : FVec F S4 .f32) (main_v13 : IVec S_ 1) (main_v16 : IVec S6x64 1) : IVec S_ 1 :=
  let main_c_5 : IVec S_ 1 := constantI S_ 1 1#1
  let main_v17 : IVec S_ 1 := (fun x v => Host.reduce IntOp.andi x v reducesTo_S6x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S16384x128 .f32) (main_arg1 : FVec F S100000x3 .f32) (main_arg2 : FVec F S16384x3 .f32) (main_arg3 : IVec S1000000 32) (main_arg4 : IVec S1000000 32) (main_arg5 : FVec F S6x64 .f32) (main_arg6 : FVec F S64 .f32) (main_arg7 : FVec F S64x64 .f32) (main_arg8 : FVec F S64 .f32) (main_arg9 : FVec F S64x128 .f32) (main_arg10 : FVec F S128 .f32) (main_arg11 : FVec F S128x256 .f32) (main_arg12 : FVec F S256 .f32) (main_arg13 : FVec F S256x4 .f32) (main_arg14 : FVec F S4 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S100000x3 .f32 := Host.absf main_arg1
  let main_cst_0 : FVec F S_ .f32 := constant S_ .f32 0x7F800000#32
  let main_v5 : FVec F S100000x3 .f32 := broadcastInDim S100000x3 ![] bcast_S_S100000x3 main_cst_0
  let main_v6 : IVec S100000x3 1 := cmpf .olt main_v4 main_v5
  let main_c_1 : IVec S_ 1 := constantI S_ 1 1#1
  let main_v7 : IVec S_ 1 := (fun x v => Host.reduce IntOp.andi x v reducesTo_S100000x3_S_d0_1 h_S_) main_v6 main_c_1
  let main_v8 : IVec S_ 1 := andi main_v3 main_v7
  let main_v9 : FVec F S16384x3 .f32 := Host.absf main_arg2
  let main_cst_2 : FVec F S_ .f32 := constant S_ .f32 0x7F800000#32
  let main_v10 : FVec F S16384x3 .f32 := broadcastInDim S16384x3 ![] bcast_S_S16384x3 main_cst_2
  let main_v11 : IVec S16384x3 1 := cmpf .olt main_v9 main_v10
  let main_c_3 : IVec S_ 1 := constantI S_ 1 1#1
  let main_v12 : IVec S_ 1 := (fun x v => Host.reduce IntOp.andi x v reducesTo_S16384x3_S_d0_1 h_S_) main_v11 main_c_3
  let main_v13 : IVec S_ 1 := andi main_v8 main_v12
  let main_v14 : FVec F S6x64 .f32 := Host.absf main_arg5
  let main_cst_4 : FVec F S_ .f32 := constant S_ .f32 0x7F800000#32
  let main_v15 : FVec F S6x64 .f32 := broadcastInDim S6x64 ![] bcast_S_S6x64 main_cst_4
  let main_v16 : IVec S6x64 1 := cmpf .olt main_v14 main_v15
  fn_part1 (F := F) main_arg6 main_arg7 main_arg8 main_arg9 main_arg10 main_arg11 main_arg12 main_arg13 main_arg14 main_v13 main_v16
-- ==== Kernel.lean ====
abbrev S16384x128 : Shape := ⟨2, ![16384, 128]⟩
abbrev S100000x3 : Shape := ⟨2, ![100000, 3]⟩
abbrev S16384x3 : Shape := ⟨2, ![16384, 3]⟩
abbrev S1000000 : Shape := ⟨1, ![1000000]⟩
abbrev S6x64 : Shape := ⟨2, ![6, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S256x4 : Shape := ⟨2, ![256, 4]⟩
abbrev S4 : Shape := ⟨1, ![4]⟩
abbrev S_ : Shape := ⟨0, ![]⟩
abbrev S1000000x1 : Shape := ⟨2, ![1000000, 1]⟩
abbrev S1000000x3 : Shape := ⟨2, ![1000000, 3]⟩
abbrev S1000000x6 : Shape := ⟨2, ![1000000, 6]⟩
abbrev S1000000x128 : Shape := ⟨2, ![1000000, 128]⟩
abbrev S8000x6 : Shape := ⟨2, ![8000, 6]⟩
abbrev S8000x128 : Shape := ⟨2, ![8000, 128]⟩
abbrev S8000x64 : Shape := ⟨2, ![8000, 64]⟩
abbrev S1x64 : Shape := ⟨2, ![1, 64]⟩
abbrev S1x128 : Shape := ⟨2, ![1, 128]⟩
abbrev S100000x128 : Shape := ⟨2, ![100000, 128]⟩
abbrev S100000x1 : Shape := ⟨2, ![100000, 1]⟩
abbrev S100000x4 : Shape := ⟨2, ![100000, 4]⟩
abbrev S5000x128 : Shape := ⟨2, ![5000, 128]⟩
abbrev S5000x4 : Shape := ⟨2, ![5000, 4]⟩
abbrev S5000x256 : Shape := ⟨2, ![5000, 256]⟩
abbrev S1x256 : Shape := ⟨2, ![1, 256]⟩
abbrev S1x4 : Shape := ⟨2, ![1, 4]⟩

abbrev nBuf : Space → Nat
  | .hbm => 60
  | .vmem => 20
  | .smem => 0
  | _ => 0

abbrev bufTy : (tb : Table) → Fin (tcTables nBuf tb) → BufTy
  | .hbm, ⟨0, _⟩ => ⟨S16384x128, .f32⟩
  | .hbm, ⟨1, _⟩ => ⟨S100000x3, .f32⟩
  | .hbm, ⟨2, _⟩ => ⟨S16384x3, .f32⟩
  | .hbm, ⟨3, _⟩ => ⟨S1000000, .i32⟩
  | .hbm, ⟨4, _⟩ => ⟨S1000000, .i32⟩
  | .hbm, ⟨5, _⟩ => ⟨S6x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x128, .f32⟩
  | .hbm, ⟨10, _⟩ => ⟨S128, .f32⟩
  | .hbm, ⟨11, _⟩ => ⟨S128x256, .f32⟩
  | .hbm, ⟨12, _⟩ => ⟨S256, .f32⟩
  | .hbm, ⟨13, _⟩ => ⟨S256x4, .f32⟩
  | .hbm, ⟨14, _⟩ => ⟨S4, .f32⟩
  | .hbm, ⟨15, _⟩ => ⟨S_, .i32⟩
  | .hbm, ⟨16, _⟩ => ⟨S1000000, .i32⟩
  | .hbm, ⟨17, _⟩ => ⟨S1000000, .i1⟩
  | .hbm, ⟨18, _⟩ => ⟨S_, .i32⟩
  | .hbm, ⟨19, _⟩ => ⟨S1000000, .i32⟩
  | .hbm, ⟨20, _⟩ => ⟨S1000000, .i32⟩
  | .hbm, ⟨21, _⟩ => ⟨S1000000, .i32⟩
  | .hbm, ⟨22, _⟩ => ⟨S1000000x1, .i32⟩
  | .hbm, ⟨23, _⟩ => ⟨S1000000x3, .f32⟩
  | .hbm, ⟨24, _⟩ => ⟨S_, .i32⟩
  | .hbm, ⟨25, _⟩ => ⟨S1000000, .i32⟩
  | .hbm, ⟨26, _⟩ => ⟨S1000000, .i1⟩
  | .hbm, ⟨27, _⟩ => ⟨S_, .i32⟩
  | .hbm, ⟨28, _⟩ => ⟨S1000000, .i32⟩
  | .hbm, ⟨29, _⟩ => ⟨S1000000, .i32⟩
  | .hbm, ⟨30, _⟩ => ⟨S1000000, .i32⟩
  | .hbm, ⟨31, _⟩ => ⟨S1000000x1, .i32⟩
  | .hbm, ⟨32, _⟩ => ⟨S1000000x3, .f32⟩
  | .hbm, ⟨33, _⟩ => ⟨S1000000x6, .f32⟩
  | .hbm, ⟨34, _⟩ => ⟨S_, .i32⟩
  | .hbm, ⟨35, _⟩ => ⟨S1000000, .i32⟩
  | .hbm, ⟨36, _⟩ => ⟨S1000000, .i1⟩
  | .hbm, ⟨37, _⟩ => ⟨S_, .i32⟩
  | .hbm, ⟨38, _⟩ => ⟨S1000000, .i32⟩
  | .hbm, ⟨39, _⟩ => ⟨S1000000, .i32⟩
  | .hbm, ⟨40, _⟩ => ⟨S1000000, .i32⟩
  | .hbm, ⟨41, _⟩ => ⟨S1000000x1, .i32⟩
  | .hbm, ⟨42, _⟩ => ⟨S1000000x128, .f32⟩
  | .hbm, ⟨43, _⟩ => ⟨S1000000x128, .f32⟩
  | .hbm, ⟨44, _⟩ => ⟨S_, .f32⟩
  | .hbm, ⟨45, _⟩ => ⟨S100000x128, .f32⟩
  | .hbm, ⟨46, _⟩ => ⟨S1000000x1, .i32⟩
  | .hbm, ⟨47, _⟩ => ⟨S100000x128, .f32⟩
  | .hbm, ⟨48, _⟩ => ⟨S_, .f32⟩
  | .hbm, ⟨49, _⟩ => ⟨S1000000x1, .f32⟩
  | .hbm, ⟨50, _⟩ => ⟨S_, .f32⟩
  | .hbm, ⟨51, _⟩ => ⟨S100000x1, .f32⟩
  | .hbm, ⟨52, _⟩ => ⟨S1000000x1, .i32⟩
  | .hbm, ⟨53, _⟩ => ⟨S100000x1, .f32⟩
  | .hbm, ⟨54, _⟩ => ⟨S_, .f32⟩
  | .hbm, ⟨55, _⟩ => ⟨S100000x1, .f32⟩
  | .hbm, ⟨56, _⟩ => ⟨S100000x1, .f32⟩
  | .hbm, ⟨57, _⟩ => ⟨S100000x128, .f32⟩
  | .hbm, ⟨58, _⟩ => ⟨S100000x128, .f32⟩
  | .hbm, ⟨59, _⟩ => ⟨S100000x4, .f32⟩
  | .local _ .vmem, ⟨0, _⟩ => ⟨S8000x6, .f32⟩
  | .local _ .vmem, ⟨1, _⟩ => ⟨S8000x6, .f32⟩
  | .local _ .vmem, ⟨2, _⟩ => ⟨S8000x128, .f32⟩
  | .local _ .vmem, ⟨3, _⟩ => ⟨S8000x128, .f32⟩
  | .local _ .vmem, ⟨4, _⟩ => ⟨S6x64, .f32⟩
  | .local _ .vmem, ⟨5, _⟩ => ⟨S64, .f32⟩
  | .local _ .vmem, ⟨6, _⟩ => ⟨S64x64, .f32⟩
  | .local _ .vmem, ⟨7, _⟩ => ⟨S64, .f32⟩
  | .local _ .vmem, ⟨8, _⟩ => ⟨S64x128, .f32⟩
  | .local _ .vmem, ⟨9, _⟩ => ⟨S128, .f32⟩
  | .local _ .vmem, ⟨10, _⟩ => ⟨S8000x128, .f32⟩
  | .local _ .vmem, ⟨11, _⟩ => ⟨S8000x128, .f32⟩
  | .local _ .vmem, ⟨12, _⟩ => ⟨S5000x128, .f32⟩
  | .local _ .vmem, ⟨13, _⟩ => ⟨S5000x128, .f32⟩
  | .local _ .vmem, ⟨14, _⟩ => ⟨S128x256, .f32⟩
  | .local _ .vmem, ⟨15, _⟩ => ⟨S256, .f32⟩
  | .local _ .vmem, ⟨16, _⟩ => ⟨S256x4, .f32⟩
  | .local _ .vmem, ⟨17, _⟩ => ⟨S4, .f32⟩
  | .local _ .vmem, ⟨18, _⟩ => ⟨S5000x4, .f32⟩
  | .local _ .vmem, ⟨19, _⟩ => ⟨S5000x4, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_c_1 : Ref sig .tc := ⟨.hbm, 24, rfl⟩
abbrev main_v7 : Ref sig .tc := ⟨.hbm, 25, rfl⟩
abbrev main_v8 : Ref sig .tc := ⟨.hbm, 26, rfl⟩
abbrev main_c_2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c_3 : Ref sig .tc := ⟨.hbm, 34, rfl⟩
abbrev main_v15 : Ref sig .tc := ⟨.hbm, 35, rfl⟩
abbrev main_v16 : Ref sig .tc := ⟨.hbm, 36, rfl⟩
abbrev main_c_4 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_5 : Ref sig .tc := ⟨.hbm, 48, rfl⟩
abbrev main_v26 : Ref sig .tc := ⟨.hbm, 49, rfl⟩
abbrev main_cst_6 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_7 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x4 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x4 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x3_S1000000x3_S1000000x6_d1 : Shape.Concatenates [S1000000x3, S1000000x3] S1000000x6 1
  inb_S8000x6_S8000x6_0_0 : ∀ a, (![0, 0] : Fin 2 → Nat) a + S8000x6.size a ≤ S8000x6.size a
  h_S8000x6 : 0 < S8000x6.numel
  shapeCasts_S8000x6_S8000x6 : S8000x6.ShapeCasts S8000x6
  bitsLt_bf16_f32 : FTy.bits .bf16 < FTy.bits .f32
  inb_S6x64_S6x64_0_0 : ∀ a, (![0, 0] : Fin 2 → Nat) a + S6x64.size a ≤ S6x64.size a
  h_S6x64 : 0 < S6x64.numel
  inb_S64_S64_0 : ∀ a, (![0] : Fin 1 → Nat) a + S64.size a ≤ S64.size a
  h_S64 : 0 < S64.numel
  shapeCasts_S64_S1x64 : S64.ShapeCasts S1x64
  broadcasts_S1x64_S8000x64 : S1x64.Broadcasts S8000x64
  inb_S64x64_S64x64_0_0 : ∀ a, (![0, 0] : Fin 2 → Nat) a + S64x64.size a ≤ S64x64.size a
  h_S64x64 : 0 < S64x64.numel
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S8000x128 : S1x128.Broadcasts S8000x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  bcast_S_S100000x128 : S_.BroadcastsInDim S100000x128 (![] : Fin 0 → Fin S100000x128.rank)
  bcast_S_S1000000x1 : S_.BroadcastsInDim S1000000x1 (![] : Fin 0 → Fin S1000000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  inb_S256x4_S256x4_0_0 : ∀ a, (![0, 0] : Fin 2 → Nat) a + S256x4.size a ≤ S256x4.size a
  h_S256x4 : 0 < S256x4.numel
  inb_S4_S4_0 : ∀ a, (![0] : Fin 1 → Nat) a + S4.size a ≤ S4.size a
  h_S4 : 0 < S4.numel
  shapeCasts_S4_S1x4 : S4.ShapeCasts S1x4
  broadcasts_S1x4_S5000x4 : S1x4.Broadcasts S5000x4
  inb_S5000x4_S5000x4_0_0 : ∀ a, (![0, 0] : Fin 2 → Nat) a + S5000x4.size a ≤ S5000x4.size a
  h_S5000x4 : 0 < S5000x4.numel
  gather_S100000x3_S1000000x1_S1000000x3_1_0_n_n_0_1_13_wf : GatherDims.WF S100000x3 S1000000x1 S1000000x3 [1] [0] [] [0] [] 1 ![1, 3]
  gather_S16384x3_S1000000x1_S1000000x3_1_0_n_n_0_1_13_wf : GatherDims.WF S16384x3 S1000000x1 S1000000x3 [1] [0] [] [0] [] 1 ![1, 3]
  gather_S16384x128_S1000000x1_S1000000x128_1_0_n_n_0_1_1128_wf : GatherDims.WF S16384x128 S1000000x1 S1000000x128 [1] [0] [] [0] [] 1 ![1, 128]
  dot_S8000x6_S6x64_S8000x64_1_0_0_1_n_n_wf : DotDims.WF S8000x6 S6x64 S8000x64 [1] [0] [0] [1] [] []
  dot_S8000x64_S64x64_S8000x64_1_0_0_1_n_n_wf : DotDims.WF S8000x64 S64x64 S8000x64 [1] [0] [0] [1] [] []
  dot_S8000x64_S64x128_S8000x128_1_0_0_1_n_n_wf : DotDims.WF S8000x64 S64x128 S8000x128 [1] [0] [0] [1] [] []
  scatter_S100000x128_S1000000x1_S1000000x128_1_0_0_1_wf : ScatterDims.WF S100000x128 S1000000x1 S1000000x128 [1] [0] [0] 1
  scatter_S100000x1_S1000000x1_S1000000x1_1_0_0_1_wf : ScatterDims.WF S100000x1 S1000000x1 S1000000x1 [1] [0] [0] 1
  dot_S5000x128_S128x256_S5000x256_1_0_0_1_n_n_wf : DotDims.WF S5000x128 S128x256 S5000x256 [1] [0] [0] [1] [] []
  dot_S5000x256_S256x4_S5000x4_1_0_0_1_n_n_wf : DotDims.WF S5000x256 S256x4 S5000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x6.size a ≤ S1000000x6.size a
  hwx0_0 : ∀ i : grid0.Coords, EltTy.bits .f32 = 32 ∨ (Rect.block (s := S1000000x6) S8000x6.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S1000000x128.size a
  hwx0_1 : ∀ i : grid0.Coords, EltTy.bits .f32 = 32 ∨ (Rect.block (s := S1000000x128) S8000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S6x64.size a ≤ S6x64.size a
  hwx0_2 : ∀ i : grid0.Coords, EltTy.bits .f32 = 32 ∨ (Rect.block (s := S6x64) S6x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x128.size a ≤ S64x128.size a
  hwx0_6 : ∀ i : grid0.Coords, EltTy.bits .f32 = 32 ∨ (Rect.block (s := S64x128) S64x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8000x128.size a ≤ S1000000x128.size a
  hwx0_8 : ∀ i : grid0.Coords, EltTy.bits .f32 = 32 ∨ (Rect.block (s := S1000000x128) S8000x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .f32 = 32 ∨ (Rect.block (s := S128x256) S128x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x4.size a ≤ S256x4.size a
  hwx1_3 : ∀ i : grid1.Coords, EltTy.bits .f32 = 32 ∨ (Rect.block (s := S256x4) S256x4.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4.size a ≤ S4.size a
  hwx1_4 : ∀ i : grid1.Coords, EltTy.bits .f32 = 32 ∨ (Rect.block (s := S4) S4.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x4.size a ≤ S100000x4.size a
  hwx1_5 : ∀ i : grid1.Coords, EltTy.bits .f32 = 32 ∨ (Rect.block (s := S100000x4) S5000x4.size (cc1_transform_5 i) (hinb1_5 i)).WholeWords (EltTy.packing .f32)

variable [Facts₀]

def gather_S100000x3_S1000000x1_S1000000x3_1_0_n_n_0_1_13 : GatherDims S100000x3 S1000000x1 S1000000x3 where
  offsetDims := [1]
  collapsedSliceDims := [0]
  operandBatchingDims := []
  startIndicesBatchingDims := []
  startIndexMap := [0]
  indexVectorDim := 1
  sliceSizes := ![1, 3]
  wf := gather_S100000x3_S1000000x1_S1000000x3_1_0_n_n_0_1_13_wf
def gather_S16384x3_S1000000x1_S1000000x3_1_0_n_n_0_1_13 : GatherDims S16384x3 S1000000x1 S1000000x3 where
  offsetDims := [1]
  collapsedSliceDims := [0]
  operandBatchingDims := []
  startIndicesBatchingDims := []
  startIndexMap := [0]
  indexVectorDim := 1
  sliceSizes := ![1, 3]
  wf := gather_S16384x3_S1000000x1_S1000000x3_1_0_n_n_0_1_13_wf
def gather_S16384x128_S1000000x1_S1000000x128_1_0_n_n_0_1_1128 : GatherDims S16384x128 S1000000x1 S1000000x128 where
  offsetDims := [1]
  collapsedSliceDims := [0]
  operandBatchingDims := []
  startIndicesBatchingDims := []
  startIndexMap := [0]
  indexVectorDim := 1
  sliceSizes := ![1, 128]
  wf := gather_S16384x128_S1000000x1_S1000000x128_1_0_n_n_0_1_1128_wf
def dot_S8000x6_S6x64_S8000x64_1_0_0_1_n_n : DotDims S8000x6 S6x64 S8000x64 where
  lhsContracting := [1]
  rhsContracting := [0]
  lhsNonContracting := [0]
  rhsNonContracting := [1]
  lhsBatch := []
  rhsBatch := []
  wf := dot_S8000x6_S6x64_S8000x64_1_0_0_1_n_n_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000x1_S1000000x1_S1000000x1_1_0_0_1 : ScatterDims S100000x1 S1000000x1 S1000000x1 where
  updateWindowDims := [1]
  insertedWindowDims := [0]
  scatterDimsToOperandDims := [0]
  indexVectorDim := 1
  wf := scatter_S100000x1_S1000000x1_S1000000x1_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x4_S5000x4_1_0_0_1_n_n : DotDims S5000x256 S256x4 S5000x4 where
  lhsContracting := [1]
  rhsContracting := [0]
  lhsNonContracting := [0]
  rhsNonContracting := [1]
  lhsBatch := []
  rhsBatch := []
  wf := dot_S5000x256_S256x4_S5000x4_1_0_0_1_n_n_wf

abbrev win0_0 : Pipeline.Window sig grid0 :=
  Pipeline.Window.ofSpec (Memref.whole main_v14) S8000x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S6x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S64x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg10) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22) S8000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v33) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg11) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg12) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg13) S256x4.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg14) S4.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S5000x4.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S16384x128 : Shape := ⟨2, ![16384, 128]⟩
abbrev S100000x3 : Shape := ⟨2, ![100000, 3]⟩
abbrev S16384x3 : Shape := ⟨2, ![16384, 3]⟩
abbrev S1000000 : Shape := ⟨1, ![1000000]⟩
abbrev S6x64 : Shape := ⟨2, ![6, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S256x4 : Shape := ⟨2, ![256, 4]⟩
abbrev S4 : Shape := ⟨1, ![4]⟩
abbrev S_ : Shape := ⟨0, ![]⟩
abbrev S1000000x1 : Shape := ⟨2, ![1000000, 1]⟩
abbrev S1000000x3 : Shape := ⟨2, ![1000000, 3]⟩
abbrev S1000000x6 : Shape := ⟨2, ![1000000, 6]⟩
abbrev S1000000x64 : Shape := ⟨2, ![1000000, 64]⟩
abbrev S1x64 : Shape := ⟨2, ![1, 64]⟩
abbrev S1000000x128 : Shape := ⟨2, ![1000000, 128]⟩
abbrev S1x128 : Shape := ⟨2, ![1, 128]⟩
abbrev S100000x128 : Shape := ⟨2, ![100000, 128]⟩
abbrev S100000x1 : Shape := ⟨2, ![100000, 1]⟩
abbrev S100000x256 : Shape := ⟨2, ![100000, 256]⟩
abbrev S1x256 : Shape := ⟨2, ![1, 256]⟩
abbrev S100000x4 : Shape := ⟨2, ![100000, 4]⟩
abbrev S1x4 : Shape := ⟨2, ![1, 4]⟩

abbrev nBuf : Space → Nat
  | .hbm => 130
  | .vmem => 0
  | .smem => 0
  | _ => 0

abbrev hbmTy0_0 (i : Nat) : BufTy := match i % 128 with
  | 0 => ⟨S16384x128, .f32⟩
  | 1 => ⟨S100000x3, .f32⟩
  | 2 => ⟨S16384x3, .f32⟩
  | 3 => ⟨S1000000, .i32⟩
  | 4 => ⟨S1000000, .i32⟩
  | 5 => ⟨S6x64, .f32⟩
  | 6 => ⟨S64, .f32⟩
  | 7 => ⟨S64x64, .f32⟩
  | 8 => ⟨S64, .f32⟩
  | 9 => ⟨S64x128, .f32⟩
  | 10 => ⟨S128, .f32⟩
  | 11 => ⟨S128x256, .f32⟩
  | 12 => ⟨S256, .f32⟩
  | 13 => ⟨S256x4, .f32⟩
  | 14 => ⟨S4, .f32⟩
  | 15 => ⟨S_, .i32⟩
  | 16 => ⟨S1000000, .i32⟩
  | 17 => ⟨S1000000, .i1⟩
  | 18 => ⟨S_, .i32⟩
  | 19 => ⟨S1000000, .i32⟩
  | 20 => ⟨S1000000, .i32⟩
  | 21 => ⟨S1000000, .i32⟩
  | 22 => ⟨S1000000x1, .i32⟩
  | 23 => ⟨S1000000x3, .f32⟩
  | 24 => ⟨S_, .i32⟩
  | 25 => ⟨S1000000, .i32⟩
  | 26 => ⟨S1000000, .i1⟩
  | 27 => ⟨S_, .i32⟩
  | 28 => ⟨S1000000, .i32⟩
  | 29 => ⟨S1000000, .i32⟩
  | 30 => ⟨S1000000, .i32⟩
  | 31 => ⟨S1000000x1, .i32⟩
  | 32 => ⟨S1000000x3, .f32⟩
  | 33 => ⟨S1000000x6, .f32⟩
  | 34 => ⟨S1000000x64, .f32⟩
  | 35 => ⟨S1x64, .f32⟩
  | 36 => ⟨S1000000x64, .f32⟩
  | 37 => ⟨S1000000x64, .f32⟩
  | 38 => ⟨S1000000x64, .f32⟩
  | 39 => ⟨S1000000x64, .f32⟩
  | 40 => ⟨S_, .f32⟩
  | 41 => ⟨S1000000x64, .f32⟩
  | 42 => ⟨S1000000x64, .f32⟩
  | 43 => ⟨S1000000x64, .f32⟩
  | 44 => ⟨S_, .f32⟩
  | 45 => ⟨S1000000x64, .f32⟩
  | 46 => ⟨S1000000x64, .f32⟩
  | 47 => ⟨S1000000x64, .f32⟩
  | 48 => ⟨S_, .f32⟩
  | 49 => ⟨S1000000x64, .f32⟩
  | 50 => ⟨S1000000x64, .f32⟩
  | 51 => ⟨S_, .f32⟩
  | 52 => ⟨S1000000x64, .f32⟩
  | 53 => ⟨S1000000x64, .f32⟩
  | 54 => ⟨S1000000x64, .f32⟩
  | 55 => ⟨S1000000x64, .f32⟩
  | 56 => ⟨S1x64, .f32⟩
  | 57 => ⟨S1000000x64, .f32⟩
  | 58 => ⟨S1000000x64, .f32⟩
  | 59 => ⟨S1000000x64, .f32⟩
  | 60 => ⟨S1000000x64, .f32⟩
  | 61 => ⟨S_, .f32⟩
  | 62 => ⟨S1000000x64, .f32⟩
  | 63 => ⟨S1000000x64, .f32⟩
  | 64 => ⟨S1000000x64, .f32⟩
  | 65 => ⟨S_, .f32⟩
  | 66 => ⟨S1000000x64, .f32⟩
  | 67 => ⟨S1000000x64, .f32⟩
  | 68 => ⟨S1000000x64, .f32⟩
  | 69 => ⟨S_, .f32⟩
  | 70 => ⟨S1000000x64, .f32⟩
  | 71 => ⟨S1000000x64, .f32⟩
  | 72 => ⟨S_, .f32⟩
  | 73 => ⟨S1000000x64, .f32⟩
  | 74 => ⟨S1000000x64, .f32⟩
  | 75 => ⟨S1000000x64, .f32⟩
  | 76 => ⟨S1000000x128, .f32⟩
  | 77 => ⟨S1x128, .f32⟩
  | 78 => ⟨S1000000x128, .f32⟩
  | 79 => ⟨S1000000x128, .f32⟩
  | 80 => ⟨S_, .i32⟩
  | 81 => ⟨S1000000, .i32⟩
  | 82 => ⟨S1000000, .i1⟩
  | 83 => ⟨S_, .i32⟩
  | 84 => ⟨S1000000, .i32⟩
  | 85 => ⟨S1000000, .i32⟩
  | 86 => ⟨S1000000, .i32⟩
  | 87 => ⟨S1000000x1, .i32⟩
  | 88 => ⟨S1000000x128, .f32⟩
  | 89 => ⟨S1000000x128, .f32⟩
  | 90 => ⟨S_, .f32⟩
  | 91 => ⟨S100000x128, .f32⟩
  | 92 => ⟨S1000000x1, .i32⟩
  | 93 => ⟨S100000x128, .f32⟩
  | 94 => ⟨S_, .f32⟩
  | 95 => ⟨S1000000x1, .f32⟩
  | 96 => ⟨S_, .f32⟩
  | 97 => ⟨S100000x1, .f32⟩
  | 98 => ⟨S1000000x1, .i32⟩
  | 99 => ⟨S100000x1, .f32⟩
  | 100 => ⟨S_, .f32⟩
  | 101 => ⟨S100000x1, .f32⟩
  | 102 => ⟨S100000x1, .f32⟩
  | 103 => ⟨S100000x128, .f32⟩
  | 104 => ⟨S100000x128, .f32⟩
  | 105 => ⟨S100000x256, .f32⟩
  | 106 => ⟨S1x256, .f32⟩
  | 107 => ⟨S100000x256, .f32⟩
  | 108 => ⟨S100000x256, .f32⟩
  | 109 => ⟨S100000x256, .f32⟩
  | 110 => ⟨S100000x256, .f32⟩
  | 111 => ⟨S_, .f32⟩
  | 112 => ⟨S100000x256, .f32⟩
  | 113 => ⟨S100000x256, .f32⟩
  | 114 => ⟨S100000x256, .f32⟩
  | 115 => ⟨S_, .f32⟩
  | 116 => ⟨S100000x256, .f32⟩
  | 117 => ⟨S100000x256, .f32⟩
  | 118 => ⟨S100000x256, .f32⟩
  | 119 => ⟨S_, .f32⟩
  | 120 => ⟨S100000x256, .f32⟩
  | 121 => ⟨S100000x256, .f32⟩
  | 122 => ⟨S_, .f32⟩
  | 123 => ⟨S100000x256, .f32⟩
  | 124 => ⟨S100000x256, .f32⟩
  | 125 => ⟨S100000x256, .f32⟩
  | 126 => ⟨S100000x4, .f32⟩
  | 127 => ⟨S1x4, .f32⟩
  | _ => ⟨S16384x128, .f32⟩

abbrev hbmTy0_1 (i : Nat) : BufTy := match i % 128 with
  | 0 => ⟨S100000x4, .f32⟩
  | 1 => ⟨S100000x4, .f32⟩
  | _ => ⟨S16384x128, .f32⟩

abbrev hbmTy (i : Nat) : BufTy := match i / 128 with
  | 0 => hbmTy0_0 i
  | 1 => hbmTy0_1 i
  | _ => ⟨S16384x128, .f32⟩

abbrev bufTy : (tb : Table) → Fin (tcTables nBuf tb) → BufTy
  | .hbm, ⟨i, _⟩ => hbmTy i
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_c_1 : Ref sig .tc := ⟨.hbm, 24, rfl⟩
abbrev main_v7 : Ref sig .tc := ⟨.hbm, 25, rfl⟩
abbrev main_v8 : Ref sig .tc := ⟨.hbm, 26, rfl⟩
abbrev main_c_2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_4 : Ref sig .tc := ⟨.hbm, 48, rfl⟩
abbrev main_v27 : Ref sig .tc := ⟨.hbm, 49, rfl⟩
abbrev main_v28 : Ref sig .tc := ⟨.hbm, 50, rfl⟩
abbrev main_cst_5 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_6 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_7 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_8 : Ref sig .tc := ⟨.hbm, 69, rfl⟩
abbrev main_v44 : Ref sig .tc := ⟨.hbm, 70, rfl⟩
abbrev main_v45 : Ref sig .tc := ⟨.hbm, 71, rfl⟩
abbrev main_cst_9 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_c_10 : Ref sig .tc := ⟨.hbm, 80, rfl⟩
abbrev main_v53 : Ref sig .tc := ⟨.hbm, 81, rfl⟩
abbrev main_v54 : Ref sig .tc := ⟨.hbm, 82, rfl⟩
abbrev main_c_11 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_12 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_13 : Ref sig .tc := ⟨.hbm, 94, rfl⟩
abbrev main_v64 : Ref sig .tc := ⟨.hbm, 95, rfl⟩
abbrev main_cst_14 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_15 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_16 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_17 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_18 : Ref sig .tc := ⟨.hbm, 119, rfl⟩
abbrev main_v84 : Ref sig .tc := ⟨.hbm, 120, rfl⟩
abbrev main_v85 : Ref sig .tc := ⟨.hbm, 121, rfl⟩
abbrev main_cst_19 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x3_S1000000x3_S1000000x6_d1 : Shape.Concatenates [S1000000x3, S1000000x3] S1000000x6 1
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  bcast_S_S100000x128 : S_.BroadcastsInDim S100000x128 (![] : Fin 0 → Fin S100000x128.rank)
  bcast_S_S1000000x1 : S_.BroadcastsInDim S1000000x1 (![] : Fin 0 → Fin S1000000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  gather_S100000x3_S1000000x1_S1000000x3_1_0_n_n_0_1_13_wf : GatherDims.WF S100000x3 S1000000x1 S1000000x3 [1] [0] [] [0] [] 1 ![1, 3]
  gather_S16384x3_S1000000x1_S1000000x3_1_0_n_n_0_1_13_wf : GatherDims.WF S16384x3 S1000000x1 S1000000x3 [1] [0] [] [0] [] 1 ![1, 3]
  dot_S1000000x6_S6x64_S1000000x64_1_0_0_1_n_n_wf : DotDims.WF S1000000x6 S6x64 S1000000x64 [1] [0] [0] [1] [] []
  dot_S1000000x64_S64x64_S1000000x64_1_0_0_1_n_n_wf : DotDims.WF S1000000x64 S64x64 S1000000x64 [1] [0] [0] [1] [] []
  dot_S1000000x64_S64x128_S1000000x128_1_0_0_1_n_n_wf : DotDims.WF S1000000x64 S64x128 S1000000x128 [1] [0] [0] [1] [] []
  gather_S16384x128_S1000000x1_S1000000x128_1_0_n_n_0_1_1128_wf : GatherDims.WF S16384x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000x1_S1000000x1_S1000000x1_1_0_0_1_wf : ScatterDims.WF S100000x1 S1000000x1 S1000000x1 [1] [0] [0] 1
  dot_S100000x128_S128x256_S100000x256_1_0_0_1_n_n_wf : DotDims.WF S100000x128 S128x256 S100000x256 [1] [0] [0] [1] [] []
  dot_S100000x256_S256x4_S100000x4_1_0_0_1_n_n_wf : DotDims.WF S100000x256 S256x4 S100000x4 [1] [0] [0] [1] [] []

variable [Facts₀]

def gather_S100000x3_S1000000x1_S1000000x3_1_0_n_n_0_1_13 : GatherDims S100000x3 S1000000x1 S1000000x3 where
  offsetDims := [1]
  collapsedSliceDims := [0]
  operandBatchingDims := []
  startIndicesBatchingDims := []
  startIndexMap := [0]
  indexVectorDim := 1
  sliceSizes := ![1, 3]
  wf := gather_S100000x3_S1000000x1_S1000000x3_1_0_n_n_0_1_13_wf
def gather_S16384x3_S1000000x1_S1000000x3_1_0_n_n_0_1_13 : GatherDims S16384x3 S1000000x1 S1000000x3 where
  offsetDims := [1]
  collapsedSliceDims := [0]
  operandBatchingDims := []
  startIndicesBatchingDims := []
  startIndexMap := [0]
  indexVectorDim := 1
  sliceSizes := ![1, 3]
  wf := gather_S16384x3_S1000000x1_S1000000x3_1_0_n_n_0_1_13_wf
def dot_S1000000x6_S6x64_S1000000x64_1_0_0_1_n_n : DotDims S1000000x6 S6x64 S1000000x64 where
  lhsContracting := [1]
  rhsContracting := [0]
  lhsNonContracting := [0]
  rhsNonContracting := [1]
  lhsBatch := []
  rhsBatch := []
  wf := dot_S1000000x6_S6x64_S1000000x64_1_0_0_1_n_n_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def dot_S1000000x64_S64x128_S1000000x128_1_0_0_1_n_n : DotDims S1000000x64 S64x128 S1000000x128 where
  lhsContracting := [1]
  rhsContracting := [0]
  lhsNonContracting := [0]
  rhsNonContracting := [1]
  lhsBatch := []
  rhsBatch := []
  wf := dot_S1000000x64_S64x128_S1000000x128_1_0_0_1_n_n_wf
def gather_S16384x128_S1000000x1_S1000000x128_1_0_n_n_0_1_1128 : GatherDims S16384x128 S1000000x1 S1000000x128 where
  offsetDims := [1]
  collapsedSliceDims := [0]
  operandBatchingDims := []
  startIndicesBatchingDims := []
  startIndexMap := [0]
  indexVectorDim := 1
  sliceSizes := ![1, 128]
  wf := gather_S16384x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000x1_S1000000x1_S1000000x1_1_0_0_1 : ScatterDims S100000x1 S1000000x1 S1000000x1 where
  updateWindowDims := [1]
  insertedWindowDims := [0]
  scatterDimsToOperandDims := [0]
  indexVectorDim := 1
  wf := scatter_S100000x1_S1000000x1_S1000000x1_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x256_S256x4_S100000x4_1_0_0_1_n_n : DotDims S100000x256 S256x4 S100000x4 where
  lhsContracting := [1]
  rhsContracting := [0]
  lhsNonContracting := [0]
  rhsNonContracting := [1]
  lhsBatch := []
  rhsBatch := []
  wf := dot_S100000x256_S256x4_S100000x4_1_0_0_1_n_n_wf

class Facts : Prop extends Facts₀ where

variable [Facts]
-- ==== Proof.KernelRun.lean ====
/-
  The idealized kernel's run with its result named.

  The program is four segments: host operations, the edge-MLP region, host operations, the projection region.
  The contents of every buffer at each segment boundary are a fold from the launch memory; at the last boundary the
  result buffer holds what the projection region's write-backs leave.  Every weakly fair execution terminates in
  a state whose unscoped buffers are that last boundary's contents, so the result is read there, and each
  argument is read back through the fold to its launch contents.
-/
import proofs.«135473_j36112085024917_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's
    contents and every argument as launched. -/
theorem run : θ_run defs (onTc (τ := τ) (main (F := F))) ⟨m, fun _ => 0, ρ⟩ (fun r => ∀ c : Dev nD,
      r.2.mem ((c.tc : Thread nD τ).loc main_v34) = W4 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v34 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c)⟩)

end Cert.KernelIdeal.RunValue

end
-- ==== Proof.LibDense.lean ====
/-
  Dense layers read as functions of rows, at the ideal values.

  A dense layer of an MLP takes an [A, K] matrix of rows, a [K, N] weight matrix and an [N] bias to the [A, N]
  matrix whose entry (r, n) is  sum_k x(r, k) * w(k, n) + b(n).  Entry (r, n) depends on row r of x only, so the
  layer applied to a block of rows is the block of the layer applied to all rows; that is what lets a kernel
  that walks over row blocks be compared with a reference that multiplies whole matrices.

  Two spellings of the layer are read to this one function: the kernel's (the operands narrowed to bf16, which
  changes nothing at the ideal values; a matrix product accumulated into a zero splat; the bias cast to one row
  and broadcast down the rows) and the host's (a dot_general; the bias broadcast to one row, then down the rows).
  Likewise the tanh form of gelu,  x * (1/2 * (1 + tanh (c1 * (x + c0 * x^3)))),  is read pointwise in the
  kernel's spelling (x^3 as x * (x * x), splatted scalars) and the host's (x^3 as (x * x) * x, broadcast
  constants); the two cubes agree because multiplication of extended reals is commutative.  All of it is generic in the extents.
-/
import Idealize.ShloMosaic.Lib.KernelVsHost
import Idealize.ShloMosaic.Lib.ValueIdx
import Idealize.ShloMosaic.Lib.Pipeline.Value
import Idealize.ShloMosaic.PureOps.Ideal.Laws

noncomputable section

open scoped BigOperators

namespace Cert.LibDense

open Idealize.ShloMosaic Idealize.ShloMosaic.ValueIdx

/-! ## The contraction of a plain matrix product as a sum over the shared axis -/

/-- For the plain dimension numbers (rows x contraction times contraction x columns) the contraction index is
    its one coordinate, and the operand indices at output (r, n) and contraction k are (r, k) and (k, n). -/
theorem plain_sum (A K N : Nat) (l : (⟨2, ![A, K]⟩ : Shape).Idx → EReal) (r : (⟨2, ![K, N]⟩ : Shape).Idx → EReal)
    (j : (⟨2, ![A, N]⟩ : Shape).Idx) :
    ∑ k : (DotDims.plain A K N).contr.Idx, l ((DotDims.plain A K N).lhsIdx j k) * r ((DotDims.plain A K N).rhsIdx j k)
      = ∑ k : Fin K, l (ix2 (j 0 : Fin A) k) * r (ix2 k (j 1 : Fin N)) := by
  rw [← Equiv.sum_comp (contrEquiv1 (DotDims.plain A K N) K rfl rfl).symm]
  refine Finset.sum_congr rfl fun k _ => ?_
  have hk := contrEquiv1_symm_val (DotDims.plain A K N) K rfl rfl k
  have el : (DotDims.plain A K N).lhsIdx j ((contrEquiv1 (DotDims.plain A K N) K rfl rfl).symm k) = ix2 (j 0 : Fin A) k := by
    funext a
    match a with
    | ⟨0, _⟩ => rfl
    | ⟨1, _⟩ => exact Fin.ext hk
  have er : (DotDims.plain A K N).rhsIdx j ((contrEquiv1 (DotDims.plain A K N) K rfl rfl).symm k) = ix2 k (j 1 : Fin N) := by
    funext a
    match a with
    | ⟨0, _⟩ => exact Fin.ext hk
    | ⟨1, _⟩ => rfl
  exact congrArg₂ (· * ·) (congrArg l el) (congrArg r er)

/-! ## The bias laid along every row -/

/-- The kernel's spelling: the bias cast to one row and broadcast down the rows reads the bias at the column. -/
theorem bias_rows_kernel {A N : Nat} {α : Type} (b : (⟨1, ![N]⟩ : Shape).Idx → α)
    (h1 : (⟨1, ![N]⟩ : Shape).ShapeCasts ⟨2, ![1, N]⟩) (hb : (⟨2, ![1, N]⟩ : Shape).Broadcasts ⟨2, ![A, N]⟩)
    (i : (⟨2, ![A, N]⟩ : Shape).Idx) :
    broadcastTo ⟨2, ![A, N]⟩ (shapeCast ⟨2, ![1, N]⟩ b h1) hb i = b (ix1 (i 1 : Fin N)) := by
  have e1 := broadcastTo_apply (shapeCast ⟨2, ![1, N]⟩ b h1) hb i (ix2 (0 : Fin 1) (i 1 : Fin N)) (by
    intro a
    match a with
    | ⟨0, _⟩ => rfl
    | ⟨1, _⟩ =>
      show (i 1).val = if N = 1 then 0 else (i 1).val
      split
      · have := (i 1).isLt; have e : (i 1).val < N := this; omega
      · rfl)
  have e2 := shapeCast_apply b h1 (ix2 (0 : Fin 1) (i 1 : Fin N)) (ix1 (i 1 : Fin N)) (by
    rw [Shape.rowMajor_val_two, Shape.rowMajor_val_one]; show (i 1).val = 0 * N + (i 1).val; omega)
  exact e1.trans e2

/-- The host's spelling: the bias broadcast to one row along axis 1, then down the rows, reads the bias at the column. -/
theorem bias_rows_host_ix {A N : Nat} {α : Type} (b : (⟨1, ![N]⟩ : Shape).Idx → α)
    (hd : (⟨1, ![N]⟩ : Shape).BroadcastsInDim ⟨2, ![1, N]⟩ ![1])
    (hbc : (⟨2, ![1, N]⟩ : Shape).BroadcastsInDim ⟨2, ![A, N]⟩ ![0, 1]) (p : Fin A) (q : Fin N) :
    broadcastInDim ⟨2, ![A, N]⟩ ![0, 1] hbc (broadcastInDim ⟨2, ![1, N]⟩ ![1] hd b) (ix2 p q) = b (ix1 q) := by
  rw [broadcastInDim_oneRow_apply hbc _ p q]
  refine broadcastInDim_apply ![1] hd b (ix2 (0 : Fin 1) q) (ix1 q) ?_
  intro a
  match a with
  | ⟨0, _⟩ =>
    show q.val = if N = 1 then 0 else q.val
    split
    · have := q.isLt; omega
    · rfl

/-- The same at any index. -/
theorem bias_rows_host {A N : Nat} {α : Type} (b : (⟨1, ![N]⟩ : Shape).Idx → α)
    (hd : (⟨1, ![N]⟩ : Shape).BroadcastsInDim ⟨2, ![1, N]⟩ ![1])
    (hbc : (⟨2, ![1, N]⟩ : Shape).BroadcastsInDim ⟨2, ![A, N]⟩ ![0, 1])
    (i : (⟨2, ![A, N]⟩ : Shape).Idx) :
    broadcastInDim ⟨2, ![A, N]⟩ ![0, 1] hbc (broadcastInDim ⟨2, ![1, N]⟩ ![1] hd b) i = b (ix1 (i 1 : Fin N)) := by
  obtain ⟨p, q, rfl⟩ : ∃ (p : Fin A) (q : Fin N), i = ix2 p q := ⟨i 0, i 1, eq_ix2 i⟩
  exact bias_rows_host_ix b hd hbc p q

/-! ## The dense layer -/

/-- The dense layer on rows: entry (r, n) is the sum over k of x(r, k) * w(k, n), plus b(n). -/
def dense (A K N : Nat) (x : (⟨2, ![A, K]⟩ : Shape).Idx → EReal) (w : (⟨2, ![K, N]⟩ : Shape).Idx → EReal)
    (b : (⟨1, ![N]⟩ : Shape).Idx → EReal) : (⟨2, ![A, N]⟩ : Shape).Idx → EReal :=
  fun j => (∑ k : Fin K, x (ix2 (j 0 : Fin A) k) * w (ix2 k (j 1 : Fin N))) + b (ix1 (j 1 : Fin N))

/-- The kernel's layer (bf16 operands, zero accumulator, bias cast and broadcast) is the dense layer. -/
theorem dense_kernel {A K N : Nat} (x : FVec Ideal ⟨2, ![A, K]⟩ .f32) (w : FVec Ideal ⟨2, ![K, N]⟩ .f32)
    (b : FVec Ideal ⟨1, ![N]⟩ .f32) (hlt : FTy.bits .bf16 < FTy.bits .f32)
    (h1 : (⟨1, ![N]⟩ : Shape).ShapeCasts ⟨2, ![1, N]⟩) (hb : (⟨2, ![1, N]⟩ : Shape).Broadcasts ⟨2, ![A, N]⟩) :
    addf (matmul (DotDims.plain A K N) none (truncf .bf16 x hlt) (truncf .bf16 w hlt) (constant ⟨2, ![A, N]⟩ .f32 0x00000000#32))
      (broadcastTo ⟨2, ![A, N]⟩ (shapeCast ⟨2, ![1, N]⟩ b h1) hb) = dense A K N x w b := by
  funext j
  rw [addf_apply, bias_rows_kernel b h1 hb j]
  refine congrArg (· + b (ix1 (j 1 : Fin N))) ?_
  refine (Ideal.matmul_constant_zero_apply (DotDims.plain A K N) none (truncf .bf16 x hlt) (truncf .bf16 w hlt) j).trans ?_
  exact plain_sum A K N x w j

/-- The host's layer (dot_general, bias broadcast twice) is the dense layer. -/
theorem dense_host {A K N : Nat} (x : FVec Ideal ⟨2, ![A, K]⟩ .f32) (w : FVec Ideal ⟨2, ![K, N]⟩ .f32)
    (b : FVec Ideal ⟨1, ![N]⟩ .f32)
    (hd : (⟨1, ![N]⟩ : Shape).BroadcastsInDim ⟨2, ![1, N]⟩ ![1])
    (hbc : (⟨2, ![1, N]⟩ : Shape).BroadcastsInDim ⟨2, ![A, N]⟩ ![0, 1]) :
    addf (Host.dotGeneral (DotDims.plain A K N) none x w)
      (broadcastInDim ⟨2, ![A, N]⟩ ![0, 1] hbc (broadcastInDim ⟨2, ![1, N]⟩ ![1] hd b)) = dense A K N x w b := by
  funext j
  rw [addf_apply, bias_rows_host b hd hbc j]
  refine congrArg (· + b (ix1 (j 1 : Fin N))) ?_
  refine (Ideal.dotGeneral_apply (DotDims.plain A K N) none _ x w j).trans ?_
  exact plain_sum A K N x w j

/-- Entry (p, q) of the layer depends on row p only: two matrices that agree on a row give the same entry there. -/
theorem dense_row {A A' K N : Nat} (x : (⟨2, ![A, K]⟩ : Shape).Idx → EReal) (x' : (⟨2, ![A', K]⟩ : Shape).Idx → EReal)
    (w : (⟨2, ![K, N]⟩ : Shape).Idx → EReal) (b : (⟨1, ![N]⟩ : Shape).Idx → EReal) (p : Fin A) (r : Fin A') (q : Fin N)
    (h : ∀ k : Fin K, x (ix2 p k) = x' (ix2 r k)) :
    dense A K N x w b (ix2 p q) = dense A' K N x' w b (ix2 r q) := by
  show (∑ k : Fin K, x (ix2 p k) * w (ix2 k q)) + b (ix1 q) = (∑ k : Fin K, x' (ix2 r k) * w (ix2 k q)) + b (ix1 q)
  rw [Finset.sum_congr rfl fun k _ => by rw [h k]]

/-! ## gelu, tanh form -/

/-- gelu's tanh approximation on one extended real, the four f32 constants at their binary values. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- The kernel's spelling, pointwise: splatted scalars, the cube as x * (x * x). -/
theorem gelu_kernel {s : Shape} (v : FVec Ideal s .f32) :
    mulf v (mulf (broadcast s (Scalar.ofBits (F := Ideal) .f32 0x3F000000#32))
      (addf (broadcast s (Scalar.ofBits (F := Ideal) .f32 0x3F800000#32))
        (tanh (mulf (broadcast s (Scalar.ofBits (F := Ideal) .f32 0x3F4C422A#32))
          (addf v (mulf (broadcast s (Scalar.ofBits (F := Ideal) .f32 0x3D372713#32)) (mulf v (mulf v v))))))))
      = fun j => gelu (v j) := rfl

/-- The host's spelling, pointwise: broadcast constants, the cube as (x * x) * x. -/
theorem gelu_host {s : Shape} (v : FVec Ideal s .f32) (hS : (⟨0, ![]⟩ : Shape).BroadcastsInDim s (![] : Fin 0 → Fin s.rank)) :
    mulf v (mulf (broadcastInDim s ![] hS (constant (F := Ideal) ⟨0, ![]⟩ .f32 0x3F000000#32))
      (addf (broadcastInDim s ![] hS (constant (F := Ideal) ⟨0, ![]⟩ .f32 0x3F800000#32))
        (Host.tanh (mulf (broadcastInDim s ![] hS (constant (F := Ideal) ⟨0, ![]⟩ .f32 0x3F4C422A#32))
          (addf v (mulf (broadcastInDim s ![] hS (constant (F := Ideal) ⟨0, ![]⟩ .f32 0x3D372713#32)) (mulf (mulf v v) v)))))))
      = fun j => gelu (v j) := by
  funext j
  show v j * (Ideal.ofBits .f32 0x3F000000#32 * (Ideal.ofBits .f32 0x3F800000#32
    + Ideal.tanh (Ideal.ofBits .f32 0x3F4C422A#32 * (v j + Ideal.ofBits .f32 0x3D372713#32 * ((v j * v j) * v j))))) = gelu (v j)
  rw [mul_comm (v j * v j) (v j)]
  rfl

end Cert.LibDense

end
-- ==== Proof.Spec.lean ====
/-
  The two MLPs of the decoder as functions of rows, at the ideal values.

  The edge MLP takes a row of six coordinates (a query point and a latent point) through three dense layers,
  6 -> 64 -> 64 -> 128, with gelu after the first two, and multiplies the result entrywise by the row of
  source features: rep(e, c) = MLP(e_in(e, :))(c) * src_feat(e, c).  The projection MLP takes a row of 128
  aggregated channels through two dense layers, 128 -> 256 -> 4, with gelu between them.  Both are stated for
  any number of rows A, and entry (r, c) of either depends on row r of its inputs only: that is the fact that
  identifies a result computed block of rows by block of rows with the result computed on all rows at once.
-/
import proofs.«135473_j36112085024917_1_alg».proof.Proof.LibDense

noncomputable section

namespace Cert.Spec

open Idealize.ShloMosaic Idealize.ShloMosaic.ValueIdx Cert.LibDense

/-- The gated edge MLP on A rows. -/
def edgeMLP (A : Nat) (x : (⟨2, ![A, 6]⟩ : Shape).Idx → EReal) (sf : (⟨2, ![A, 128]⟩ : Shape).Idx → EReal)
    (W0 : (⟨2, ![6, 64]⟩ : Shape).Idx → EReal) (b0 : (⟨1, ![64]⟩ : Shape).Idx → EReal)
    (W1 : (⟨2, ![64, 64]⟩ : Shape).Idx → EReal) (b1 : (⟨1, ![64]⟩ : Shape).Idx → EReal)
    (W2 : (⟨2, ![64, 128]⟩ : Shape).Idx → EReal) (b2 : (⟨1, ![128]⟩ : Shape).Idx → EReal) :
    (⟨2, ![A, 128]⟩ : Shape).Idx → EReal :=
  fun j => dense A 64 128 (fun i => gelu (dense A 64 64 (fun i' => gelu (dense A 6 64 x W0 b0 i')) W1 b1 i)) W2 b2 j * sf j

/-- Entry (p, q) of the edge MLP on one matrix is entry (r, q) on another when row p of the first is row r of the
    second (coordinates and the gating feature). -/
theorem edgeMLP_row {A A' : Nat} (x : (⟨2, ![A, 6]⟩ : Shape).Idx → EReal) (sf : (⟨2, ![A, 128]⟩ : Shape).Idx → EReal)
    (x' : (⟨2, ![A', 6]⟩ : Shape).Idx → EReal) (sf' : (⟨2, ![A', 128]⟩ : Shape).Idx → EReal)
    (W0 : (⟨2, ![6, 64]⟩ : Shape).Idx → EReal) (b0 : (⟨1, ![64]⟩ : Shape).Idx → EReal)
    (W1 : (⟨2, ![64, 64]⟩ : Shape).Idx → EReal) (b1 : (⟨1, ![64]⟩ : Shape).Idx → EReal)
    (W2 : (⟨2, ![64, 128]⟩ : Shape).Idx → EReal) (b2 : (⟨1, ![128]⟩ : Shape).Idx → EReal)
    (p : Fin A) (r : Fin A') (q : Fin 128)
    (hx : ∀ k : Fin 6, x (ix2 p k) = x' (ix2 r k)) (hs : sf (ix2 p q) = sf' (ix2 r q)) :
    edgeMLP A x sf W0 b0 W1 b1 W2 b2 (ix2 p q) = edgeMLP A' x' sf' W0 b0 W1 b1 W2 b2 (ix2 r q) := by
  unfold edgeMLP
  show _ * sf (ix2 p q) = _ * sf' (ix2 r q)
  rw [hs]
  refine congrArg (· * sf' (ix2 r q)) ?_
  refine dense_row _ _ W2 b2 p r q fun k => ?_
  refine congrArg gelu (dense_row _ _ W1 b1 p r k fun k' => ?_)
  exact congrArg gelu (dense_row x x' W0 b0 p r k' hx)

/-- The projection MLP on A rows. -/
def projMLP (A : Nat) (agg : (⟨2, ![A, 128]⟩ : Shape).Idx → EReal)
    (P0 : (⟨2, ![128, 256]⟩ : Shape).Idx → EReal) (pb0 : (⟨1, ![256]⟩ : Shape).Idx → EReal)
    (P1 : (⟨2, ![256, 4]⟩ : Shape).Idx → EReal) (pb1 : (⟨1, ![4]⟩ : Shape).Idx → EReal) :
    (⟨2, ![A, 4]⟩ : Shape).Idx → EReal :=
  dense A 256 4 (fun i => gelu (dense A 128 256 agg P0 pb0 i)) P1 pb1

/-- Entry (p, q) of the projection on one matrix is entry (r, q) on another when row p of the first is row r of the second. -/
theorem projMLP_row {A A' : Nat} (agg : (⟨2, ![A, 128]⟩ : Shape).Idx → EReal) (agg' : (⟨2, ![A', 128]⟩ : Shape).Idx → EReal)
    (P0 : (⟨2, ![128, 256]⟩ : Shape).Idx → EReal) (pb0 : (⟨1, ![256]⟩ : Shape).Idx → EReal)
    (P1 : (⟨2, ![256, 4]⟩ : Shape).Idx → EReal) (pb1 : (⟨1, ![4]⟩ : Shape).Idx → EReal)
    (p : Fin A) (r : Fin A') (q : Fin 4) (h : ∀ k : Fin 128, agg (ix2 p k) = agg' (ix2 r k)) :
    projMLP A agg P0 pb0 P1 pb1 (ix2 p q) = projMLP A' agg' P0 pb0 P1 pb1 (ix2 r q) := by
  unfold projMLP
  refine dense_row _ _ P1 pb1 p r q fun k => ?_
  exact congrArg gelu (dense_row agg agg' P0 pb0 p r k h)

end Cert.Spec

end
-- ==== Proof.KernelBody.lean ====
/-
  What one grid point of each kernel computes, as a function of the blocks it loads.

  The edge kernel loads a block of 8000 rows of edge coordinates and of source features and the whole weight
  matrices and biases, and stores one 8000 x 128 block: the gated edge MLP of those 8000 rows.  The projection
  kernel loads a block of 5000 rows of aggregated channels and its weights and stores one 5000 x 4 block: the
  projection MLP of those rows.  Each layer is a matrix product into a zero accumulator on operands narrowed to
  bf16 (the identity at the ideal values) plus a bias laid along the rows, and gelu is the tanh form written
  with x * (x * x) for the cube; each is rewritten to the dense layer and the scalar gelu of the row specification.
-/
import proofs.«135473_j36112085024917_1_alg».proof.Proof.Gen.KernelIdeal.Frame
import proofs.«135473_j36112085024917_1_alg».proof.Proof.Spec
import Idealize.ShloMosaic.Lib.Pipeline.Value

set_option maxRecDepth 16384

noncomputable section

namespace Cert.KernelIdeal.Body

open Cert.KernelIdeal Cert.KernelIdeal.Gen
open Idealize.ShloMosaic Idealize.ShloMosaic.ValueIdx Cert.LibDense Cert.Spec

theorem hz2 : (![0, 0] : Fin 2 → Nat) = fun _ => 0 := funext fun a => by fin_cases a <;> rfl
theorem hz1 : (![0] : Fin 1 → Nat) = fun _ => 0 := funext fun a => by fin_cases a <;> rfl

/-! ## The edge kernel -/

/-- The first two layers: dense 6 -> 64, gelu, dense 64 -> 64, on the 8000 rows of the block. -/
theorem edge_hidden (v0 : Vec Ideal S8000x6 .f32) (v3 : Vec Ideal S6x64 .f32) (v6 : Vec Ideal S64 .f32)
    (v23 : Vec Ideal S64x64 .f32) (v27 : Vec Ideal S64 .f32) :
    k0_pay2 (F := Ideal) v0 v3 v6 v23 v27
      = dense 8000 64 64 (fun i => gelu (dense 8000 6 64 v0 v3 v6 i)) v23 v27 := by
  have hd1 : dot_S8000x6_S6x64_S8000x64_1_0_0_1_n_n = DotDims.plain 8000 6 64 := rfl
  have hd2 : dot_S8000x64_S64x64_S8000x64_1_0_0_1_n_n = DotDims.plain 8000 64 64 := rfl
  have e1 : addf (matmul dot_S8000x6_S6x64_S8000x64_1_0_0_1_n_n none
        (truncf .bf16 (shapeCast S8000x6 v0 shapeCasts_S8000x6_S8000x6) bitsLt_bf16_f32) (truncf .bf16 v3 bitsLt_bf16_f32)
        (constant (F := Ideal) S8000x64 .f32 0x00000000#32))
      (broadcastTo S8000x64 (shapeCast S1x64 v6 shapeCasts_S64_S1x64) broadcasts_S1x64_S8000x64)
      = dense 8000 6 64 v0 v3 v6 := by
    rw [shapeCast_self, hd1]
    exact dense_kernel v0 v3 v6 bitsLt_bf16_f32 shapeCasts_S64_S1x64 broadcasts_S1x64_S8000x64
  unfold k0_pay2
  dsimp only
  rw [e1, gelu_kernel, hd2]
  exact dense_kernel _ v23 v27 bitsLt_bf16_f32 shapeCasts_S64_S1x64 broadcasts_S1x64_S8000x64

/-- The second gelu: the hidden rows times a half of one plus the tanh term. -/
theorem edge_gelu2 (v0 : Vec Ideal S8000x6 .f32) (v3 : Vec Ideal S6x64 .f32) (v6 : Vec Ideal S64 .f32)
    (v23 : Vec Ideal S64x64 .f32) (v27 : Vec Ideal S64 .f32) :
    mulf (k0_pay2 (F := Ideal) v0 v3 v6 v23 v27)
        (mulf (broadcast S8000x64 (Scalar.ofBits (F := Ideal) .f32 0x3F000000#32)) (k0_pay3 (F := Ideal) v0 v3 v6 v23 v27))
      = fun j => gelu (k0_pay2 (F := Ideal) v0 v3 v6 v23 v27 j) := by
  unfold k0_pay3
  dsimp only
  exact gelu_kernel _

/-- One point's stored block is the gated edge MLP of the 8000 rows it loaded. -/
theorem out0_8_eq (x0 : Vec Ideal S8000x6 .f32) (x1 : Vec Ideal S8000x128 .f32) (x2 : Vec Ideal S6x64 .f32)
    (x3 : Vec Ideal S64 .f32) (x4 : Vec Ideal S64x64 .f32) (x5 : Vec Ideal S64 .f32) (x6 : Vec Ideal S64x128 .f32)
    (x7 : Vec Ideal S128 .f32) :
    out0_8 (F := Ideal) x0 x1 x2 x3 x4 x5 x6 x7 = edgeMLP 8000 x0 x1 x2 x3 x4 x5 x6 x7 := by
  have hd3 : dot_S8000x64_S64x128_S8000x128_1_0_0_1_n_n = DotDims.plain 8000 64 128 := rfl
  unfold out0_8
  rw [View.canon_unit_zero hz2]
  simp only [View.ld_unit_zero (S := S8000x6) hz2, View.ld_unit_zero (S := S8000x128) hz2, View.ld_unit_zero (S := S6x64) hz2,
    View.ld_unit_zero (S := S64x64) hz2, View.ld_unit_zero (S := S64x128) hz2, View.ld_unit_zero (S := S64) hz1,
    View.ld_unit_zero (S := S128) hz1]
  unfold k0_pay1
  dsimp only
  rw [edge_gelu2, edge_hidden, shapeCast_self, hd3,
    dense_kernel _ x6 x7 bitsLt_bf16_f32 shapeCasts_S128_S1x128 broadcasts_S1x128_S8000x128]
  rfl

/-! ## The projection kernel -/

/-- One point's stored block is the projection MLP of the 5000 rows it loaded. -/
theorem out1_5_eq (x0 : Vec Ideal S5000x128 .f32) (x1 : Vec Ideal S128x256 .f32) (x2 : Vec Ideal S256 .f32)
    (x3 : Vec Ideal S256x4 .f32) (x4 : Vec Ideal S4 .f32) :
    out1_5 (F := Ideal) x0 x1 x2 x3 x4 = projMLP 5000 x0 x1 x2 x3 x4 := by
  have hd1 : dot_S5000x128_S128x256_S5000x256_1_0_0_1_n_n = DotDims.plain 5000 128 256 := rfl
  have hd2 : dot_S5000x256_S256x4_S5000x4_1_0_0_1_n_n = DotDims.plain 5000 256 4 := rfl
  have e1 : addf (matmul dot_S5000x128_S128x256_S5000x256_1_0_0_1_n_n none
        (truncf .bf16 (shapeCast S5000x128 x0 shapeCasts_S5000x128_S5000x128) bitsLt_bf16_f32) (truncf .bf16 x1 bitsLt_bf16_f32)
        (constant (F := Ideal) S5000x256 .f32 0x00000000#32))
      (broadcastTo S5000x256 (shapeCast S1x256 x2 shapeCasts_S256_S1x256) broadcasts_S1x256_S5000x256)
      = dense 5000 128 256 x0 x1 x2 := by
    rw [shapeCast_self, hd1]
    exact dense_kernel x0 x1 x2 bitsLt_bf16_f32 shapeCasts_S256_S1x256 broadcasts_S1x256_S5000x256
  unfold out1_5
  rw [View.canon_unit_zero hz2]
  simp only [View.ld_unit_zero (S := S5000x128) hz2, View.ld_unit_zero (S := S128x256) hz2, View.ld_unit_zero (S := S256x4) hz2,
    View.ld_unit_zero (S := S256) hz1, View.ld_unit_zero (S := S4) hz1]
  unfold k1_pay1
  dsimp only
  rw [e1, gelu_kernel, hd2]
  exact dense_kernel _ x3 x4 bitsLt_bf16_f32 shapeCasts_S4_S1x4 broadcasts_S1x4_S5000x4

end Cert.KernelIdeal.Body

end
-- ==== Proof.KernelBlocks.lean ====
/-
  From blocks to arrays: what each region leaves in its output array, as one function of the arrays it finds.

  The edge region walks 125 points; point t reads rows 8000 t .. 8000 t + 7999 of the edge coordinates and of the
  source features, and the whole of every weight and bias, and writes rows 8000 t .. 8000 t + 7999 of the output.
  The projection region walks 20 points over blocks of 5000 rows in the same way.  What a point writes is the MLP
  of the rows it read; an entry of the MLP depends on its own row only; so the block a point writes is the block
  of the MLP of ALL rows.  The blocks tile the output (row r belongs to point r / 8000, or r / 5000), hence after
  the region the output array is the MLP of the whole input arrays.  Stated at any contents V the region is entered with.
-/
import proofs.«135473_j36112085024917_1_alg».proof.Proof.Gen.KernelIdeal.Frame
import proofs.«135473_j36112085024917_1_alg».proof.Proof.KernelBody
import Idealize.ShloMosaic.Lib.Pipeline.Value

set_option maxRecDepth 16384

noncomputable section

namespace Cert.KernelIdeal.Blocks

open Cert.KernelIdeal Cert.KernelIdeal.Gen Cert.KernelIdeal.Body
open Idealize.ShloMosaic Idealize.ShloMosaic.TcCoe Idealize.SL.Sem Idealize.ShloMosaic.ValueIdx Cert.LibDense Cert.Spec
open Idealize.ShloMosaic.Pipeline (Dat)

variable (V : (c : Dev nD) → (b : Ref sig .tc) → Buf (Elt Ideal) ((c : Thread nD τ).loc b))

/-! ## The edge region -/

/-- The printed index maps, decided over the grid: the row-blocked windows sit at block row t, the weights at block 0. -/
theorem idx0 : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 1) = 0
    ∧ win0_4.index t (0 : Fin 2) = 0
    ∧ win0_4.index t (1 : Fin 2) = 0
    ∧ win0_5.index t (0 : Fin 1) = 0
    ∧ win0_6.index t (0 : Fin 2) = 0
    ∧ win0_6.index t (1 : Fin 2) = 0
    ∧ win0_7.index t (0 : Fin 1) = 0
    ∧ win0_8.index t (0 : Fin 2) = t.val
    ∧ win0_8.index t (1 : Fin 2) = 0 :=
  (by decide +kernel : ∀ t : Fin grid0.N, _)

/-- Window 2 of region 0 holds its whole array at every point. -/
theorem wblk0_2 (c : Dev nD) (t : Fin cfg0.N) : iblk0 V c 2 t = V c main_arg5 := by
  have e0 : win0_2.index t (0 : Fin 2) = 0 := (idx0 t).2.2.2.2.1
  have e1 : win0_2.index t (1 : Fin 2) = 0 := (idx0 t).2.2.2.2.2.1
  funext y
  show V c main_arg5 (((cfg0.win 2).blk t).view.emb y) = V c main_arg5 y
  have h : ((cfg0.win 2).blk t).view.emb y = y := by
    funext a; apply Fin.ext
    match a with
    | ⟨0, _⟩ => show win0_2.index t (0 : Fin 2) * 6 + 1 * (y 0).val = (y 0).val; omega
    | ⟨1, _⟩ => show win0_2.index t (1 : Fin 2) * 64 + 1 * (y 1).val = (y 1).val; omega
  rw [h]

/-- Window 3 of region 0 holds its whole array at every point. -/
theorem wblk0_3 (c : Dev nD) (t : Fin cfg0.N) : iblk0 V c 3 t = V c main_arg6 := by
  have e0 : win0_3.index t (0 : Fin 1) = 0 := (idx0 t).2.2.2.2.2.2.1
  funext y
  show V c main_arg6 (((cfg0.win 3).blk t).view.emb y) = V c main_arg6 y
  have h : ((cfg0.win 3).blk t).view.emb y = y := by
    funext a; apply Fin.ext
    match a with
    | ⟨0, _⟩ => show win0_3.index t (0 : Fin 1) * 64 + 1 * (y 0).val = (y 0).val; omega
  rw [h]

/-- Window 4 of region 0 holds its whole array at every point. -/
theorem wblk0_4 (c : Dev nD) (t : Fin cfg0.N) : iblk0 V c 4 t = V c main_arg7 := by
  have e0 : win0_4.index t (0 : Fin 2) = 0 := (idx0 t).2.2.2.2.2.2.2.1
  have e1 : win0_4.index t (1 : Fin 2) = 0 := (idx0 t).2.2.2.2.2.2.2.2.1
  funext y
  show V c main_arg7 (((cfg0.win 4).blk t).view.emb y) = V c main_arg7 y
  have h : ((cfg0.win 4).blk t).view.emb y = y := by
    funext a; apply Fin.ext
    match a with
    | ⟨0, _⟩ => show win0_4.index t (0 : Fin 2) * 64 + 1 * (y 0).val = (y 0).val; omega
    | ⟨1, _⟩ => show win0_4.index t (1 : Fin 2) * 64 + 1 * (y 1).val = (y 1).val; omega
  rw [h]

/-- Window 5 of region 0 holds its whole array at every point. -/
theorem wblk0_5 (c : Dev nD) (t : Fin cfg0.N) : iblk0 V c 5 t = V c main_arg8 := by
  have e0 : win0_5.index t (0 : Fin 1) = 0 := (idx0 t).2.2.2.2.2.2.2.2.2.1
  funext y
  show V c main_arg8 (((cfg0.win 5).blk t).view.emb y) = V c main_arg8 y
  have h : ((cfg0.win 5).blk t).view.emb y = y := by
    funext a; apply Fin.ext
    match a with
    | ⟨0, _⟩ => show win0_5.index t (0 : Fin 1) * 64 + 1 * (y 0).val = (y 0).val; omega
  rw [h]

/-- Window 6 of region 0 holds its whole array at every point. -/
theorem wblk0_6 (c : Dev nD) (t : Fin cfg0.N) : iblk0 V c 6 t = V c main_arg9 := by
  have e0 : win0_6.index t (0 : Fin 2) = 0 := (idx0 t).2.2.2.2.2.2.2.2.2.2.1
  have e1 : win0_6.index t (1 : Fin 2) = 0 := (idx0 t).2.2.2.2.2.2.2.2.2.2.2.1
  funext y
  show V c main_arg9 (((cfg0.win 6).blk t).view.emb y) = V c main_arg9 y
  have h : ((cfg0.win 6).blk t).view.emb y = y := by
    funext a; apply Fin.ext
    match a with
    | ⟨0, _⟩ => show win0_6.index t (0 : Fin 2) * 64 + 1 * (y 0).val = (y 0).val; omega
    | ⟨1, _⟩ => show win0_6.index t (1 : Fin 2) * 128 + 1 * (y 1).val = (y 1).val; omega
  rw [h]

/-- Window 7 of region 0 holds its whole array at every point. -/
theorem wblk0_7 (c : Dev nD) (t : Fin cfg0.N) : iblk0 V c 7 t = V c main_arg10 := by
  have e0 : win0_7.index t (0 : Fin 1) = 0 := (idx0 t).2.2.2.2.2.2.2.2.2.2.2.2.1
  funext y
  show V c main_arg10 (((cfg0.win 7).blk t).view.emb y) = V c main_arg10 y
  have h : ((cfg0.win 7).blk t).view.emb y = y := by
    funext a; apply Fin.ext
    match a with
    | ⟨0, _⟩ => show win0_7.index t (0 : Fin 1) * 128 + 1 * (y 0).val = (y 0).val; omega
  rw [h]

/-- Row p of window 0's block at point t is row t * 8000 + p of its array. -/
theorem emb0_0 (t : Fin cfg0.N) (p : Fin 8000) (q : Fin 6) (hr : t.val * 8000 + p.val < 1000000) :
    ((cfg0.win 0).blk t).view.emb (ix2 p q) = ix2 (⟨t.val * 8000 + p.val, hr⟩ : Fin 1000000) q := by
  have e0 : win0_0.index t (0 : Fin 2) = t.val := (idx0 t).1
  have e1 : win0_0.index t (1 : Fin 2) = 0 := (idx0 t).2.1
  funext a; apply Fin.ext
  match a with
  | ⟨0, _⟩ => show win0_0.index t (0 : Fin 2) * 8000 + 1 * p.val = t.val * 8000 + p.val; omega
  | ⟨1, _⟩ => show win0_0.index t (1 : Fin 2) * 6 + 1 * q.val = q.val; omega

/-- Row p of window 1's block at point t is row t * 8000 + p of its array. -/
theorem emb0_1 (t : Fin cfg0.N) (p : Fin 8000) (q : Fin 128) (hr : t.val * 8000 + p.val < 1000000) :
    ((cfg0.win 1).blk t).view.emb (ix2 p q) = ix2 (⟨t.val * 8000 + p.val, hr⟩ : Fin 1000000) q := by
  have e0 : win0_1.index t (0 : Fin 2) = t.val := (idx0 t).2.2.1
  have e1 : win0_1.index t (1 : Fin 2) = 0 := (idx0 t).2.2.2.1
  funext a; apply Fin.ext
  match a with
  | ⟨0, _⟩ => show win0_1.index t (0 : Fin 2) * 8000 + 1 * p.val = t.val * 8000 + p.val; omega
  | ⟨1, _⟩ => show win0_1.index t (1 : Fin 2) * 128 + 1 * q.val = q.val; omega

/-- Row p of window 8's block at point t is row t * 8000 + p of its array. -/
theorem emb0_8 (t : Fin cfg0.N) (p : Fin 8000) (q : Fin 128) (hr : t.val * 8000 + p.val < 1000000) :
    ((cfg0.win 8).blk t).view.emb (ix2 p q) = ix2 (⟨t.val * 8000 + p.val, hr⟩ : Fin 1000000) q := by
  have e0 : win0_8.index t (0 : Fin 2) = t.val := (idx0 t).2.2.2.2.2.2.2.2.2.2.2.2.2.1
  have e1 : win0_8.index t (1 : Fin 2) = 0 := (idx0 t).2.2.2.2.2.2.2.2.2.2.2.2.2.2
  funext a; apply Fin.ext
  match a with
  | ⟨0, _⟩ => show win0_8.index t (0 : Fin 2) * 8000 + 1 * p.val = t.val * 8000 + p.val; omega
  | ⟨1, _⟩ => show win0_8.index t (1 : Fin 2) * 128 + 1 * q.val = q.val; omega

/-- The edge region's output as one function of the arrays it finds: the gated edge MLP of all 1000000 rows. -/
def rep (c : Dev nD) : S1000000x128.Idx → EReal :=
  edgeMLP 1000000 (V c main_v14) (V c main_v21) (V c main_arg5) (V c main_arg6) (V c main_arg7) (V c main_arg8)
    (V c main_arg9) (V c main_arg10)

/-- What point t writes back is block t of that function. -/
theorem flushed0_eq (c : Dev nD) (t : Fin cfg0.N) :
    (dat0 (F := Ideal) V c).flushed 8 t = ((cfg0.win 8).blk t).view.read (Elt Ideal) (rep V c) := by
  show (cfg0.win 8).cut (grid0.coords t) ((dat0 (F := Ideal) V c).after 8 t) = _
  rw [after0_8, out0_8_eq, wblk0_2, wblk0_3, wblk0_4, wblk0_5, wblk0_6, wblk0_7]
  have ht : t.val < 125 := lt_of_lt_of_eq t.isLt N_0
  funext y
  obtain ⟨p, q, rfl⟩ : ∃ (p : Fin 8000) (q : Fin 128), y = ix2 p q := ⟨y 0, y 1, eq_ix2 y⟩
  have hr : t.val * 8000 + p.val < 1000000 := by have := p.isLt; omega
  show edgeMLP 8000 (iblk0 V c 0 t) (iblk0 V c 1 t) (V c main_arg5) (V c main_arg6) (V c main_arg7) (V c main_arg8)
      (V c main_arg9) (V c main_arg10) (ix2 p q)
    = rep V c (((cfg0.win 8).blk t).view.emb (ix2 p q))
  rw [emb0_8 t p q hr]
  unfold rep
  refine edgeMLP_row _ _ _ _ _ _ _ _ _ _ p ⟨t.val * 8000 + p.val, hr⟩ q (fun k => ?_) ?_
  · show V c main_v14 (((cfg0.win 0).blk t).view.emb (ix2 p k)) = _
    rw [emb0_0 t p k hr]
  · show V c main_v21 (((cfg0.win 1).blk t).view.emb (ix2 p q)) = _
    rw [emb0_1 t p q hr]

/-- An index of the array is in point t's block iff each coordinate is in the block's range on its axis. -/
theorem mem_blk0 (t : Fin cfg0.N) (i : S1000000x128.Idx) :
    i ∈ ((cfg0.win 8).blk t).view.set ↔ ∀ a : Fin 2, win0_8.index t a * S8000x128.size a ≤ (i a).val ∧ (i a).val < win0_8.index t a * S8000x128.size a + S8000x128.size a := by
  show i ∈ ((View.whole main_v22).slice (win0_8.rect t)).set ↔ _
  rw [View.set_slice_whole, Rect.mem_set_unit]
  exact Iff.rfl

/-- Every index of the array is in the block of the point that owns its row: row r belongs to point r / 8000. -/
theorem cover0 (i : S1000000x128.Idx) :
    ∃ t : Fin cfg0.N, (cfg0.win 8).flush t = true ∧ i ∈ ((cfg0.win 8).blk t).view.set := by
  have hi0 : (i 0).val < 1000000 := (i 0).isLt
  have hi1 : (i 1).val < 128 := (i 1).isLt
  have hN : grid0.N = 125 := N_0
  obtain ⟨t, ht⟩ : ∃ t : Fin cfg0.N, t.val = (i 0).val / 8000 :=
    ⟨⟨(i 0).val / 8000, by show (i 0).val / 8000 < grid0.N; rw [hN]; omega⟩, rfl⟩
  have e0 : win0_8.index t (0 : Fin 2) = t.val := (idx0 t).2.2.2.2.2.2.2.2.2.2.2.2.2.1
  have e1 : win0_8.index t (1 : Fin 2) = 0 := (idx0 t).2.2.2.2.2.2.2.2.2.2.2.2.2.2
  refine ⟨t, flush0_8 t, ?_⟩
  rw [mem_blk0]
  intro a
  match a with
  | ⟨0, _⟩ => show win0_8.index t (0 : Fin 2) * 8000 ≤ (i 0).val ∧ (i 0).val < win0_8.index t (0 : Fin 2) * 8000 + 8000; omega
  | ⟨1, _⟩ => show win0_8.index t (1 : Fin 2) * 128 ≤ (i 1).val ∧ (i 1).val < win0_8.index t (1 : Fin 2) * 128 + 128; omega

/-- After the edge region its output array is the gated edge MLP of all rows. -/
theorem final0 (c : Dev nD) : (dat0 (F := Ideal) V c).arrAt 8 cfg0.N = rep V c :=
  (dat0 (F := Ideal) V c).arrAt_eq_of_cover 8 (rep V c) (fun t _ => flushed0_eq V c t) cover0

/-! ## The projection region -/

/-- The printed index maps, decided over the grid: the row-blocked windows sit at block row t, the weights at block 0. -/
theorem idx1 : ∀ t : Fin cfg1.N,
    win1_0.index t (0 : Fin 2) = t.val
    ∧ win1_0.index t (1 : Fin 2) = 0
    ∧ win1_1.index t (0 : Fin 2) = 0
    ∧ win1_1.index t (1 : Fin 2) = 0
    ∧ win1_2.index t (0 : Fin 1) = 0
    ∧ win1_3.index t (0 : Fin 2) = 0
    ∧ win1_3.index t (1 : Fin 2) = 0
    ∧ win1_4.index t (0 : Fin 1) = 0
    ∧ win1_5.index t (0 : Fin 2) = t.val
    ∧ win1_5.index t (1 : Fin 2) = 0 :=
  (by decide +kernel : ∀ t : Fin grid1.N, _)

/-- Window 1 of region 1 holds its whole array at every point. -/
theorem wblk1_1 (c : Dev nD) (t : Fin cfg1.N) : iblk1 V c 1 t = V c main_arg11 := by
  have e0 : win1_1.index t (0 : Fin 2) = 0 := (idx1 t).2.2.1
  have e1 : win1_1.index t (1 : Fin 2) = 0 := (idx1 t).2.2.2.1
  funext y
  show V c main_arg11 (((cfg1.win 1).blk t).view.emb y) = V c main_arg11 y
  have h : ((cfg1.win 1).blk t).view.emb y = y := by
    funext a; apply Fin.ext
    match a with
    | ⟨0, _⟩ => show win1_1.index t (0 : Fin 2) * 128 + 1 * (y 0).val = (y 0).val; omega
    | ⟨1, _⟩ => show win1_1.index t (1 : Fin 2) * 256 + 1 * (y 1).val = (y 1).val; omega
  rw [h]

/-- Window 2 of region 1 holds its whole array at every point. -/
theorem wblk1_2 (c : Dev nD) (t : Fin cfg1.N) : iblk1 V c 2 t = V c main_arg12 := by
  have e0 : win1_2.index t (0 : Fin 1) = 0 := (idx1 t).2.2.2.2.1
  funext y
  show V c main_arg12 (((cfg1.win 2).blk t).view.emb y) = V c main_arg12 y
  have h : ((cfg1.win 2).blk t).view.emb y = y := by
    funext a; apply Fin.ext
    match a with
    | ⟨0, _⟩ => show win1_2.index t (0 : Fin 1) * 256 + 1 * (y 0).val = (y 0).val; omega
  rw [h]

/-- Window 3 of region 1 holds its whole array at every point. -/
theorem wblk1_3 (c : Dev nD) (t : Fin cfg1.N) : iblk1 V c 3 t = V c main_arg13 := by
  have e0 : win1_3.index t (0 : Fin 2) = 0 := (idx1 t).2.2.2.2.2.1
  have e1 : win1_3.index t (1 : Fin 2) = 0 := (idx1 t).2.2.2.2.2.2.1
  funext y
  show V c main_arg13 (((cfg1.win 3).blk t).view.emb y) = V c main_arg13 y
  have h : ((cfg1.win 3).blk t).view.emb y = y := by
    funext a; apply Fin.ext
    match a with
    | ⟨0, _⟩ => show win1_3.index t (0 : Fin 2) * 256 + 1 * (y 0).val = (y 0).val; omega
    | ⟨1, _⟩ => show win1_3.index t (1 : Fin 2) * 4 + 1 * (y 1).val = (y 1).val; omega
  rw [h]

/-- Window 4 of region 1 holds its whole array at every point. -/
theorem wblk1_4 (c : Dev nD) (t : Fin cfg1.N) : iblk1 V c 4 t = V c main_arg14 := by
  have e0 : win1_4.index t (0 : Fin 1) = 0 := (idx1 t).2.2.2.2.2.2.2.1
  funext y
  show V c main_arg14 (((cfg1.win 4).blk t).view.emb y) = V c main_arg14 y
  have h : ((cfg1.win 4).blk t).view.emb y = y := by
    funext a; apply Fin.ext
    match a with
    | ⟨0, _⟩ => show win1_4.index t (0 : Fin 1) * 4 + 1 * (y 0).val = (y 0).val; omega
  rw [h]

/-- Row p of window 0's block at point t is row t * 5000 + p of its array. -/
theorem emb1_0 (t : Fin cfg1.N) (p : Fin 5000) (q : Fin 128) (hr : t.val * 5000 + p.val < 100000) :
    ((cfg1.win 0).blk t).view.emb (ix2 p q) = ix2 (⟨t.val * 5000 + p.val, hr⟩ : Fin 100000) q := by
  have e0 : win1_0.index t (0 : Fin 2) = t.val := (idx1 t).1
  have e1 : win1_0.index t (1 : Fin 2) = 0 := (idx1 t).2.1
  funext a; apply Fin.ext
  match a with
  | ⟨0, _⟩ => show win1_0.index t (0 : Fin 2) * 5000 + 1 * p.val = t.val * 5000 + p.val; omega
  | ⟨1, _⟩ => show win1_0.index t (1 : Fin 2) * 128 + 1 * q.val = q.val; omega

/-- Row p of window 5's block at point t is row t * 5000 + p of its array. -/
theorem emb1_5 (t : Fin cfg1.N) (p : Fin 5000) (q : Fin 4) (hr : t.val * 5000 + p.val < 100000) :
    ((cfg1.win 5).blk t).view.emb (ix2 p q) = ix2 (⟨t.val * 5000 + p.val, hr⟩ : Fin 100000) q := by
  have e0 : win1_5.index t (0 : Fin 2) = t.val := (idx1 t).2.2.2.2.2.2.2.2.1
  have e1 : win1_5.index t (1 : Fin 2) = 0 := (idx1 t).2.2.2.2.2.2.2.2.2
  funext a; apply Fin.ext
  match a with
  | ⟨0, _⟩ => show win1_5.index t (0 : Fin 2) * 5000 + 1 * p.val = t.val * 5000 + p.val; omega
  | ⟨1, _⟩ => show win1_5.index t (1 : Fin 2) * 4 + 1 * q.val = q.val; omega

/-- The projection region's output as one function of the arrays it finds: the projection MLP of all 100000 rows. -/
def proj (c : Dev nD) : S100000x4.Idx → EReal :=
  projMLP 100000 (V c main_v33) (V c main_arg11) (V c main_arg12) (V c main_arg13) (V c main_arg14)

/-- What point t writes back is block t of that function. -/
theorem flushed1_eq (c : Dev nD) (t : Fin cfg1.N) :
    (dat1 (F := Ideal) V c).flushed 5 t = ((cfg1.win 5).blk t).view.read (Elt Ideal) (proj V c) := by
  show (cfg1.win 5).cut (grid1.coords t) ((dat1 (F := Ideal) V c).after 5 t) = _
  rw [after1_5, out1_5_eq, wblk1_1, wblk1_2, wblk1_3, wblk1_4]
  have ht : t.val < 20 := lt_of_lt_of_eq t.isLt N_1
  funext y
  obtain ⟨p, q, rfl⟩ : ∃ (p : Fin 5000) (q : Fin 4), y = ix2 p q := ⟨y 0, y 1, eq_ix2 y⟩
  have hr : t.val * 5000 + p.val < 100000 := by have := p.isLt; omega
  show projMLP 5000 (iblk1 V c 0 t) (V c main_arg11) (V c main_arg12) (V c main_arg13) (V c main_arg14) (ix2 p q)
    = proj V c (((cfg1.win 5).blk t).view.emb (ix2 p q))
  rw [emb1_5 t p q hr]
  unfold proj
  refine projMLP_row _ _ _ _ _ _ p ⟨t.val * 5000 + p.val, hr⟩ q (fun k => ?_)
  show V c main_v33 (((cfg1.win 0).blk t).view.emb (ix2 p k)) = _
  rw [emb1_0 t p k hr]

/-- An index of the array is in point t's block iff each coordinate is in the block's range on its axis. -/
theorem mem_blk1 (t : Fin cfg1.N) (i : S100000x4.Idx) :
    i ∈ ((cfg1.win 5).blk t).view.set ↔ ∀ a : Fin 2, win1_5.index t a * S5000x4.size a ≤ (i a).val ∧ (i a).val < win1_5.index t a * S5000x4.size a + S5000x4.size a := by
  show i ∈ ((View.whole main_v34).slice (win1_5.rect t)).set ↔ _
  rw [View.set_slice_whole, Rect.mem_set_unit]
  exact Iff.rfl

/-- Every index of the array is in the block of the point that owns its row: row r belongs to point r / 5000. -/
theorem cover1 (i : S100000x4.Idx) :
    ∃ t : Fin cfg1.N, (cfg1.win 5).flush t = true ∧ i ∈ ((cfg1.win 5).blk t).view.set := by
  have hi0 : (i 0).val < 100000 := (i 0).isLt
  have hi1 : (i 1).val < 4 := (i 1).isLt
  have hN : grid1.N = 20 := N_1
  obtain ⟨t, ht⟩ : ∃ t : Fin cfg1.N, t.val = (i 0).val / 5000 :=
    ⟨⟨(i 0).val / 5000, by show (i 0).val / 5000 < grid1.N; rw [hN]; omega⟩, rfl⟩
  have e0 : win1_5.index t (0 : Fin 2) = t.val := (idx1 t).2.2.2.2.2.2.2.2.1
  have e1 : win1_5.index t (1 : Fin 2) = 0 := (idx1 t).2.2.2.2.2.2.2.2.2
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 4 ≤ (i 1).val ∧ (i 1).val < win1_5.index t (1 : Fin 2) * 4 + 4; omega

/-- After the projection region its output array is the projection MLP of all rows. -/
theorem final1 (c : Dev nD) : (dat1 (F := Ideal) V c).arrAt 5 cfg1.N = proj V c :=
  (dat1 (F := Ideal) V c).arrAt_eq_of_cover 5 (proj V c) (fun t _ => flushed1_eq V c t) cover1

end Cert.KernelIdeal.Blocks

end
-- ==== Proof.HostGlue.lean ====
/-
  The host operations around the two kernels, as functions of the arrays they read.

  Before the edge kernel: a negative edge endpoint index is wrapped by adding the extent of the axis it indexes;
  the rows of the query positions at the destination indices and of the latent positions at the source indices
  are gathered and joined along the lanes into six coordinates per edge; and the rows of the source features at
  the source indices are gathered.  Between the kernels: the per-edge results are summed into their destination
  rows (a scatter-add into zeros, at the destination indices as given), the number of edges per destination row
  is counted the same way from a column of ones, and each sum is divided by the larger of its count and one:
  the mean over a destination's edges.
-/
import proofs.«135473_j36112085024917_1_alg».proof.Proof.Gen.KernelIdeal
import proofs.«135473_j36112085024917_1_alg».proof.Proof.Spec

set_option maxRecDepth 16384

noncomputable section

namespace Cert.KernelIdeal.Glue

open Cert.KernelIdeal Cert.KernelIdeal.Gen
open Idealize.ShloMosaic Cert.Spec

/-- An index vector with its negative entries wrapped: i + n where i < 0, else i. -/
def wrapIdx (n : BitVec 32) (i : (⟨S1000000, .i32⟩ : BufTy).Contents (Elt Ideal)) : (⟨S1000000, .i32⟩ : BufTy).Contents (Elt Ideal) :=
  select (cmpi .slt i (broadcastInDim S1000000 ![] bcast_S_S1000000 (constantI S_ 32 0#32)))
    (addi i (broadcastInDim S1000000 ![] bcast_S_S1000000 (constantI S_ 32 n))) i

/-- The six coordinates of every edge: the query position at its destination, then the latent position at its source. -/
def edgeIn (q : (⟨S100000x3, .f32⟩ : BufTy).Contents (Elt Ideal)) (l : (⟨S16384x3, .f32⟩ : BufTy).Contents (Elt Ideal))
    (dst src : (⟨S1000000, .i32⟩ : BufTy).Contents (Elt Ideal)) : (⟨S1000000x6, .f32⟩ : BufTy).Contents (Elt Ideal) :=
  concatenate S1000000x6 1
    [⟨S1000000x3, Host.gather gather_S100000x3_S1000000x1_S1000000x3_1_0_n_n_0_1_13 q
        (broadcastInDim S1000000x1 ![0] bcast_S1000000_S1000000x1_0 (wrapIdx 100000#32 dst))⟩,
     ⟨S1000000x3, Host.gather gather_S16384x3_S1000000x1_S1000000x3_1_0_n_n_0_1_13 l
        (broadcastInDim S1000000x1 ![0] bcast_S1000000_S1000000x1_0 (wrapIdx 16384#32 src))⟩]
    concatenates_S1000000x3_S1000000x3_S1000000x6_d1

/-- The source features of every edge: the feature row at its source. -/
def srcFeat (f : (⟨S16384x128, .f32⟩ : BufTy).Contents (Elt Ideal)) (src : (⟨S1000000, .i32⟩ : BufTy).Contents (Elt Ideal)) :
    (⟨S1000000x128, .f32⟩ : BufTy).Contents (Elt Ideal) :=
  Host.gather gather_S16384x128_S1000000x1_S1000000x128_1_0_n_n_0_1_1128 f
    (broadcastInDim S1000000x1 ![0] bcast_S1000000_S1000000x1_0 (wrapIdx 16384#32 src))

/-- The mean of the per-edge results over each destination row's edges (an empty row divides by one). -/
def agg (rep : (⟨S1000000x128, .f32⟩ : BufTy).Contents (Elt Ideal)) (dst : (⟨S1000000, .i32⟩ : BufTy).Contents (Elt Ideal)) :
    (⟨S100000x128, .f32⟩ : BufTy).Contents (Elt Ideal) :=
  Host.divf
    (Host.scatterAdd scatter_S100000x128_S1000000x1_S1000000x128_1_0_0_1
      (broadcastInDim S100000x128 ![] bcast_S_S100000x128 (constant (F := Ideal) S_ .f32 0x00000000#32))
      (broadcastInDim S1000000x1 ![0] bcast_S1000000_S1000000x1_0 dst) rep)
    (broadcastInDim S100000x128 ![0, 1] bcast_S100000x1_S100000x128_0_1
      (maximumf
        (Host.scatterAdd scatter_S100000x1_S1000000x1_S1000000x1_1_0_0_1
          (broadcastInDim S100000x1 ![] bcast_S_S100000x1 (constant (F := Ideal) S_ .f32 0x00000000#32))
          (broadcastInDim S1000000x1 ![0] bcast_S1000000_S1000000x1_0 dst)
          (broadcastInDim S1000000x1 ![] bcast_S_S1000000x1 (constant (F := Ideal) S_ .f32 0x3F800000#32)))
        (broadcastInDim S100000x1 ![] bcast_S_S100000x1 (constant (F := Ideal) S_ .f32 0x3F800000#32))))

/-- The decoder's result as one function of its fifteen arguments: gather the edge inputs, run the gated edge MLP on
    every edge, average into the destination rows, run the projection MLP on every destination row. -/
def whole (a0 : (⟨S16384x128, .f32⟩ : BufTy).Contents (Elt Ideal)) (a1 : (⟨S100000x3, .f32⟩ : BufTy).Contents (Elt Ideal))
    (a2 : (⟨S16384x3, .f32⟩ : BufTy).Contents (Elt Ideal)) (a3 a4 : (⟨S1000000, .i32⟩ : BufTy).Contents (Elt Ideal))
    (a5 : (⟨S6x64, .f32⟩ : BufTy).Contents (Elt Ideal)) (a6 : (⟨S64, .f32⟩ : BufTy).Contents (Elt Ideal))
    (a7 : (⟨S64x64, .f32⟩ : BufTy).Contents (Elt Ideal)) (a8 : (⟨S64, .f32⟩ : BufTy).Contents (Elt Ideal))
    (a9 : (⟨S64x128, .f32⟩ : BufTy).Contents (Elt Ideal)) (a10 : (⟨S128, .f32⟩ : BufTy).Contents (Elt Ideal))
    (a11 : (⟨S128x256, .f32⟩ : BufTy).Contents (Elt Ideal)) (a12 : (⟨S256, .f32⟩ : BufTy).Contents (Elt Ideal))
    (a13 : (⟨S256x4, .f32⟩ : BufTy).Contents (Elt Ideal)) (a14 : (⟨S4, .f32⟩ : BufTy).Contents (Elt Ideal)) :
    (⟨S100000x4, .f32⟩ : BufTy).Contents (Elt Ideal) :=
  projMLP 100000 (agg (edgeMLP 1000000 (edgeIn a1 a2 a3 a4) (srcFeat a0 a4) a5 a6 a7 a8 a9 a10) a3) a11 a12 a13 a14

end Cert.KernelIdeal.Glue

end
-- ==== Proof.KernelValue.lean ====
/-
  The idealized kernel's result as a function of its arguments.

  The result buffer at the last segment boundary is what the projection region leaves: the projection MLP of the
  arrays that region finds.  Of those, the weights are the arguments as launched, and the aggregated channels are
  what the host operations between the regions make of the edge region's output: the mean over each destination
  row's edges.  The edge region's output is the gated edge MLP of the arrays it finds: the weights as launched, and
  the edge coordinates and source features that the host operations before it gather from the arguments.
-/
import proofs.«135473_j36112085024917_1_alg».proof.Proof.Gen.KernelIdeal.Frame
import proofs.«135473_j36112085024917_1_alg».proof.Proof.KernelBlocks
import proofs.«135473_j36112085024917_1_alg».proof.Proof.HostGlue
import Idealize.ShloMosaic.Lib.StableHlo.Run

set_option maxRecDepth 16384

noncomputable section

namespace Cert.KernelIdeal.Whole

open Cert.KernelIdeal Cert.KernelIdeal.Gen Cert.KernelIdeal.Blocks Cert.KernelIdeal.Glue
open Idealize.ShloMosaic Idealize.ShloMosaic.TcCoe Idealize.SL.Sem Idealize.ShloMosaic.StableHlo Cert.Spec
open Idealize.ShloMosaic.Pipeline (Dat)

variable (m : (ℓ : Loc nD τ sig) → Buf (Elt Ideal) ℓ) (ρ : Dev nD → PrngReg)

/-! ## The arrays the edge region finds -/

/-- Argument 5 is as launched when the edge region is entered: no host operation before it writes it. -/
theorem V1_arg5 (c : Dev nD) : V1 m ρ c main_arg5 = m ((c : Thread nD τ).loc main_arg5) :=
  calc W1 m ρ c (Proc.devRef .tc main_arg5)
    _ = W0 m ρ c (Proc.devRef .tc main_arg5) := StableHlo.after_of_forall_not_mem (b := Proc.devRef .tc main_arg5) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg5) := rfl

/-- Argument 6 is as launched when the edge region is entered: no host operation before it writes it. -/
theorem V1_arg6 (c : Dev nD) : V1 m ρ c main_arg6 = m ((c : Thread nD τ).loc main_arg6) :=
  calc W1 m ρ c (Proc.devRef .tc main_arg6)
    _ = W0 m ρ c (Proc.devRef .tc main_arg6) := StableHlo.after_of_forall_not_mem (b := Proc.devRef .tc main_arg6) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg6) := rfl

/-- Argument 7 is as launched when the edge region is entered: no host operation before it writes it. -/
theorem V1_arg7 (c : Dev nD) : V1 m ρ c main_arg7 = m ((c : Thread nD τ).loc main_arg7) :=
  calc W1 m ρ c (Proc.devRef .tc main_arg7)
    _ = W0 m ρ c (Proc.devRef .tc main_arg7) := StableHlo.after_of_forall_not_mem (b := Proc.devRef .tc main_arg7) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg7) := rfl

/-- Argument 8 is as launched when the edge region is entered: no host operation before it writes it. -/
theorem V1_arg8 (c : Dev nD) : V1 m ρ c main_arg8 = m ((c : Thread nD τ).loc main_arg8) :=
  calc W1 m ρ c (Proc.devRef .tc main_arg8)
    _ = W0 m ρ c (Proc.devRef .tc main_arg8) := StableHlo.after_of_forall_not_mem (b := Proc.devRef .tc main_arg8) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg8) := rfl

/-- Argument 9 is as launched when the edge region is entered: no host operation before it writes it. -/
theorem V1_arg9 (c : Dev nD) : V1 m ρ c main_arg9 = m ((c : Thread nD τ).loc main_arg9) :=
  calc W1 m ρ c (Proc.devRef .tc main_arg9)
    _ = W0 m ρ c (Proc.devRef .tc main_arg9) := StableHlo.after_of_forall_not_mem (b := Proc.devRef .tc main_arg9) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg9) := rfl

/-- Argument 10 is as launched when the edge region is entered: no host operation before it writes it. -/
theorem V1_arg10 (c : Dev nD) : V1 m ρ c main_arg10 = m ((c : Thread nD τ).loc main_arg10) :=
  calc W1 m ρ c (Proc.devRef .tc main_arg10)
    _ = W0 m ρ c (Proc.devRef .tc main_arg10) := StableHlo.after_of_forall_not_mem (b := Proc.devRef .tc main_arg10) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg10) := rfl

set_option maxHeartbeats 4000000 in
/-- The edge coordinates the edge region finds are gathered from the arguments as launched. -/
theorem V1_v14 (c : Dev nD) : V1 m ρ c main_v14
    = edgeIn (m ((c : Thread nD τ).loc main_arg1)) (m ((c : Thread nD τ).loc main_arg2)) (m ((c : Thread nD τ).loc main_arg3))
        (m ((c : Thread nD τ).loc main_arg4)) := by
  show StableHlo.after hostOps0 (W0 m ρ c) (Proc.devRef .tc main_v14) = _
  dsimp only [hostOps0]
  after_results_simp
  rfl

set_option maxHeartbeats 4000000 in
/-- The source features the edge region finds are gathered from the arguments as launched. -/
theorem V1_v21 (c : Dev nD) : V1 m ρ c main_v21
    = srcFeat (m ((c : Thread nD τ).loc main_arg0)) (m ((c : Thread nD τ).loc main_arg4)) := by
  show StableHlo.after hostOps0 (W0 m ρ c) (Proc.devRef .tc main_v21) = _
  dsimp only [hostOps0]
  after_results_simp
  rfl

/-! ## The arrays the projection region finds -/

/-- Argument 11 is as launched when the projection region is entered. -/
theorem V3_arg11 (c : Dev nD) : V3 m ρ c main_arg11 = m ((c : Thread nD τ).loc main_arg11) :=
  (((W4_arr m ρ c 1).trans (((dat1 (V3 m ρ) c).arrAt_in 1 rfl _).trans (A_eq1 (V3 m ρ) c 1))).symm).trans (W4_main_arg11 m ρ c)

/-- Argument 12 is as launched when the projection region is entered. -/
theorem V3_arg12 (c : Dev nD) : V3 m ρ c main_arg12 = m ((c : Thread nD τ).loc main_arg12) :=
  (((W4_arr m ρ c 2).trans (((dat1 (V3 m ρ) c).arrAt_in 2 rfl _).trans (A_eq1 (V3 m ρ) c 2))).symm).trans (W4_main_arg12 m ρ c)

/-- Argument 13 is as launched when the projection region is entered. -/
theorem V3_arg13 (c : Dev nD) : V3 m ρ c main_arg13 = m ((c : Thread nD τ).loc main_arg13) :=
  (((W4_arr m ρ c 3).trans (((dat1 (V3 m ρ) c).arrAt_in 3 rfl _).trans (A_eq1 (V3 m ρ) c 3))).symm).trans (W4_main_arg13 m ρ c)

/-- Argument 14 is as launched when the projection region is entered. -/
theorem V3_arg14 (c : Dev nD) : V3 m ρ c main_arg14 = m ((c : Thread nD τ).loc main_arg14) :=
  (((W4_arr m ρ c 4).trans (((dat1 (V3 m ρ) c).arrAt_in 4 rfl _).trans (A_eq1 (V3 m ρ) c 4))).symm).trans (W4_main_arg14 m ρ c)

/-- The destination indices are as launched between the regions. -/
theorem W2_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg3) := rfl

/-- The aggregated channels the projection region finds: the mean, over each destination row's edges, of the
    edge region's output. -/
theorem V3_v33 (c : Dev nD) : V3 m ρ c main_v33
    = agg (W2 m ρ c (Proc.devRef .tc main_v22)) (W2 m ρ c (Proc.devRef .tc main_arg3)) := by
  show StableHlo.after hostOps1 (W2 m ρ c) (Proc.devRef .tc main_v33) = _
  dsimp only [hostOps1]
  after_results
  rfl

/-! ## The result -/

/-- The result buffer at the last boundary is the decoder's function of the arguments as launched. -/
theorem value (c : Dev nD) : W4 m ρ c (Proc.devRef .tc main_v34)
    = whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  rw [show W4 m ρ c (Proc.devRef .tc main_v34) = (dat1 (F := Ideal) (V3 m ρ) c).arrAt 5 cfg1.N from W4_arr m ρ c 5,
    final1 (V3 m ρ) c]
  unfold proj
  rw [V3_arg11, V3_arg12, V3_arg13, V3_arg14, V3_v33, W2_arg3,
    show W2 m ρ c (Proc.devRef .tc main_v22) = (dat0 (F := Ideal) (V1 m ρ) c).arrAt 8 cfg0.N from W2_arr m ρ c 8,
    final0 (V1 m ρ) c]
  unfold rep
  rw [V1_arg5, V1_arg6, V1_arg7, V1_arg8, V1_arg9, V1_arg10, V1_v14, V1_v21]
  rfl

end Cert.KernelIdeal.Whole

end
-- ==== Proof.RefValue.lean ====
/-
  The idealized reference's result as the same function of its arguments.

  The reference computes on whole arrays: it gathers the six edge coordinates and the source features, applies
  three dense layers (a dot_general plus a bias broadcast along the rows) with the tanh form of gelu after the
  first two, multiplies by the source features, averages into the destination rows, and applies two more dense
  layers with gelu between.  Each dot_general plus bias is the dense layer on rows, each gelu is the scalar gelu
  pointwise (its cube written (x * x) * x), and the gathers, the scatter-adds and the division are the very host
  operations the kernel's program runs around its two regions.
-/
import proofs.«135473_j36112085024917_1_alg».proof.Proof.Gen.ReferenceIdeal.Run
import proofs.«135473_j36112085024917_1_alg».proof.Proof.HostGlue

set_option maxRecDepth 16384

noncomputable section

namespace Cert.ReferenceIdeal.RefValue

open Cert.ReferenceIdeal Cert.ReferenceIdeal.Gen Cert.ReferenceIdeal.Value
open Idealize.ShloMosaic Idealize.ShloMosaic.TcCoe Cert.LibDense Cert.Spec

variable (L : Valuation τ sig (Elt Ideal))

/-- The first hidden layer before its gelu: dense 6 -> 64 on the gathered edge coordinates. -/
theorem v18_eq : res_main_v18 (F := Ideal) L
    = dense 1000000 6 64 (Cert.KernelIdeal.Glue.edgeIn (L (Proc.devRef .tc main_arg1)) (L (Proc.devRef .tc main_arg2)) (L (Proc.devRef .tc main_arg3)) (L (Proc.devRef .tc main_arg4))) (L (Proc.devRef .tc main_arg5)) (L (Proc.devRef .tc main_arg6)) := by
  have hd : dot_S1000000x6_S6x64_S1000000x64_1_0_0_1_n_n = DotDims.plain 1000000 6 64 := rfl
  unfold res_main_v18
  rw [hd]
  exact dense_host _ _ _ _ _

/-- The second hidden layer before its gelu: dense 64 -> 64 on gelu of the first. -/
theorem v35_eq : res_main_v35 (F := Ideal) L
    = dense 1000000 64 64 (fun i => gelu (res_main_v18 (F := Ideal) L i)) (L (Proc.devRef .tc main_arg7)) (L (Proc.devRef .tc main_arg8)) := by
  have hd : dot_S1000000x64_S64x64_S1000000x64_1_0_0_1_n_n = DotDims.plain 1000000 64 64 := rfl
  unfold res_main_v35
  rw [gelu_host, hd]
  exact dense_host _ _ _ _ _

/-- The projection's hidden layer before its gelu: dense 128 -> 256 on the mean, over each destination row's
    edges, of the gated third layer. -/
theorem v75_eq : res_main_v75 (F := Ideal) L
    = dense 100000 128 256
        (Cert.KernelIdeal.Glue.agg
          (mulf (F := Ideal) (s := S1000000x128) (φ := .f32)
            (dense 1000000 64 128 (fun i => gelu (res_main_v35 (F := Ideal) L i)) (L (Proc.devRef .tc main_arg9)) (L (Proc.devRef .tc main_arg10)))
            (Cert.KernelIdeal.Glue.srcFeat (L (Proc.devRef .tc main_arg0)) (L (Proc.devRef .tc main_arg4))))
          (L (Proc.devRef .tc main_arg3)))
        (L (Proc.devRef .tc main_arg11)) (L (Proc.devRef .tc main_arg12)) := by
  have hd3 : dot_S1000000x64_S64x128_S1000000x128_1_0_0_1_n_n = DotDims.plain 1000000 64 128 := rfl
  have hd4 : dot_S100000x128_S128x256_S100000x256_1_0_0_1_n_n = DotDims.plain 100000 128 256 := rfl
  unfold res_main_v75
  rw [gelu_host, hd3, dense_host, hd4]
  exact dense_host _ _ _ _ _

/-- The reference's result term is the decoder's function of the arguments. -/
theorem value :
    addf (Host.dotGeneral (φ₁ := .f32) (φ₂ := .f32) dot_S100000x256_S256x4_S100000x4_1_0_0_1_n_n none (mulf (res_main_v75 L) (mulf (broadcastInDim S100000x256 ![] bcast_S_S100000x256 (constant S_ .f32 0x3F000000#32)) (addf (broadcastInDim S100000x256 ![] bcast_S_S100000x256 (constant S_ .f32 0x3F800000#32)) (Host.tanh (mulf (broadcastInDim S100000x256 ![] bcast_S_S100000x256 (constant S_ .f32 0x3F4C422A#32)) (addf (res_main_v75 L) (mulf (broadcastInDim S100000x256 ![] bcast_S_S100000x256 (constant S_ .f32 0x3D372713#32)) (mulf (mulf (res_main_v75 L) (res_main_v75 L)) (res_main_v75 L))))))))) (L (Proc.devRef .tc main_arg13))) (broadcastInDim S100000x4 ![0, 1] bcast_S1x4_S100000x4_0_1 (broadcastInDim S1x4 ![1] bcast_S4_S1x4_1 (L (Proc.devRef .tc main_arg14))))
    = Cert.KernelIdeal.Glue.whole (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) (L (Proc.devRef .tc main_arg7)) (L (Proc.devRef .tc main_arg8)) (L (Proc.devRef .tc main_arg9)) (L (Proc.devRef .tc main_arg10)) (L (Proc.devRef .tc main_arg11)) (L (Proc.devRef .tc main_arg12)) (L (Proc.devRef .tc main_arg13)) (L (Proc.devRef .tc main_arg14)) := by
  have hd5 : dot_S100000x256_S256x4_S100000x4_1_0_0_1_n_n = DotDims.plain 100000 256 4 := rfl
  rw [gelu_host, hd5, dense_host, v75_eq, v35_eq, v18_eq]
  rfl

end Cert.ReferenceIdeal.RefValue

end
-- ==== Proof.lean ====
/-
  A graph-neural-operator decoder, a blocked accelerator kernel against its whole-array reference, at the ideal values.

  Both programs gather, for each of a million edges, the query position at its destination and the latent
  position at its source (six coordinates) and the source's feature row; run a three-layer MLP with gelu on the
  coordinates and multiply by the features; average the per-edge rows into their destination rows; and run a
  two-layer MLP with gelu on each of the hundred thousand destination rows.  The reference does the MLPs as
  whole-matrix products on the host.  The kernel does them in two kernel regions that walk over blocks of 8000
  edges and of 5000 destination rows, with operands narrowed to bf16 before each product; the gathers, the
  scatter-adds and the division are the same host operations in both programs.

  At the ideal values narrowing a float is the identity, a product accumulated into zeros is the product, and an
  entry of a dense layer depends on its own row only; so a block of the MLP's output is the MLP of the block of
  rows, and the kernel's two regions leave exactly the reference's two MLPs of the whole arrays.  The one place
  the two spellings differ in arithmetic is gelu's cube, x * (x * x) against (x * x) * x, equal by commutativity
  of multiplication on the extended reals; nothing needs the inputs to be finite.  The ideal pass rewrote no
  operation, so the idealized kernel is the kernel's own text.
-/
import proofs.«135473_j36112085024917_1_alg».proof.Defs
import proofs.«135473_j36112085024917_1_alg».proof.Proof.Gen.Kernel
import proofs.«135473_j36112085024917_1_alg».proof.Proof.Gen.Kernel.Skeleton
import proofs.«135473_j36112085024917_1_alg».proof.Proof.Gen.Kernel.Launch
import proofs.«135473_j36112085024917_1_alg».proof.Proof.Gen.Kernel.Points
import proofs.«135473_j36112085024917_1_alg».proof.Proof.Gen.Kernel.Frame
import proofs.«135473_j36112085024917_1_alg».proof.Proof.Gen.KernelIdeal
import proofs.«135473_j36112085024917_1_alg».proof.Proof.Gen.KernelIdeal.Skeleton
import proofs.«135473_j36112085024917_1_alg».proof.Proof.Gen.KernelIdeal.Launch
import proofs.«135473_j36112085024917_1_alg».proof.Proof.Gen.KernelIdeal.Points
import proofs.«135473_j36112085024917_1_alg».proof.Proof.Gen.KernelIdeal.Frame
import proofs.«135473_j36112085024917_1_alg».proof.Proof.Gen.ReferenceIdeal
import proofs.«135473_j36112085024917_1_alg».proof.Proof.Gen.ReferenceIdeal.Run
import proofs.«135473_j36112085024917_1_alg».proof.Proof.Gen.Pre_finite_inputs
import proofs.«135473_j36112085024917_1_alg».proof.Proof.KernelRun
import proofs.«135473_j36112085024917_1_alg».proof.Proof.KernelValue
import proofs.«135473_j36112085024917_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The two idealized programs, from memories that agree on the arguments, end with the same result: the
    decoder's function of the arguments. -/
theorem algebraic : Cert.algebraic_KernelIdeal_ReferenceIdeal := by
  intro m ρ m' ρ' _ hagree
  refine ⟨fun c => Cert.KernelIdeal.Glue.whole (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.Whole.value m ρ c), (h c).2⟩) (Cert.KernelIdeal.RunValue.run m ρ)
  · refine (θ_run Cert.ReferenceIdeal.defs _ _).mono (fun _ h c => ⟨(h c).1.trans ?_, (h c).2⟩)
      (Cert.ReferenceIdeal.Value.run (F := Ideal) m' ρ')
    refine (Cert.ReferenceIdeal.RefValue.value (StableHlo.launchContents m' c)).trans ?_
    obtain ⟨h0, h1, h2, h3, h4, h5, h6, h7, h8, h9, h10, h11, h12, h13, h14⟩ := hagree c
    show Cert.KernelIdeal.Glue.whole (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg13))
      (m' ((c.tc : Thread Cert.ReferenceIdeal.nD Cert.ReferenceIdeal.τ).loc Cert.ReferenceIdeal.main_arg14)) = _
    rw [h0, h1, h2, h3, h4, h5, h6, h7, h8, h9, h10, h11, h12, h13, h14]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
